-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v106)) (v1 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x172 : Shape := ⟨2, ![100000, 172]⟩
abbrev S200000x100 : Shape := ⟨2, ![200000, 100]⟩
abbrev S200000 : Shape := ⟨1, ![200000]⟩
abbrev S100x1 : Shape := ⟨2, ![100, 1]⟩
abbrev S100 : Shape := ⟨1, ![100]⟩
abbrev S300x472 : Shape := ⟨2, ![300, 472]⟩
abbrev S300x100 : Shape := ⟨2, ![300, 100]⟩
abbrev S300 : Shape := ⟨1, ![300]⟩
abbrev S_ : Shape := ⟨0, ![]⟩

class Facts : Prop where
  bcast_S_S100000x172 : S_.BroadcastsInDim S100000x172 (![] : Fin 0 → Fin S100000x172.rank)
  reducesTo_S100000x172_S_d0_1 : S100000x172.ReducesTo [0, 1] S_
  h_S_ : 0 < S_.numel
  bcast_S_S200000x100 : S_.BroadcastsInDim S200000x100 (![] : Fin 0 → Fin S200000x100.rank)
  reducesTo_S200000x100_S_d0_1 : S200000x100.ReducesTo [0, 1] S_
  bcast_S_S100x1 : S_.BroadcastsInDim S100x1 (![] : Fin 0 → Fin S100x1.rank)
  reducesTo_S100x1_S_d0_1 : S100x1.ReducesTo [0, 1] S_
  bcast_S_S100 : S_.BroadcastsInDim S100 (![] : Fin 0 → Fin S100.rank)
  reducesTo_S100_S_d0 : S100.ReducesTo [0] S_
  bcast_S_S300x472 : S_.BroadcastsInDim S300x472 (![] : Fin 0 → Fin S300x472.rank)
  reducesTo_S300x472_S_d0_1 : S300x472.ReducesTo [0, 1] S_
  bcast_S_S300x100 : S_.BroadcastsInDim S300x100 (![] : Fin 0 → Fin S300x100.rank)
  reducesTo_S300x100_S_d0_1 : S300x100.ReducesTo [0, 1] S_
  bcast_S_S300 : S_.BroadcastsInDim S300 (![] : Fin 0 → Fin S300.rank)
  reducesTo_S300_S_d0 : S300.ReducesTo [0] S_

variable [Facts]

def fn_part2 {F : FTy → Type} [FloatOps F] (main_arg11 : FVec F S300 .f32) (main_v33 : IVec S_ 1) : IVec S_ 1 :=
  let main_v34 : FVec F S300 .f32 := Host.absf main_arg11
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  main_v38

def fn_part1 {F : FTy → Type} [FloatOps F] (main_arg8 : FVec F S300x472 .f32) (main_arg9 : FVec F S300x100 .f32) (main_arg10 : FVec F S300 .f32) (main_arg11 : FVec F S300 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S300x472 .f32 := Host.absf main_arg8
  let main_cst_6 : FVec F S_ .f32 := constant S_ .f32 0x7F800000#32
  let main_v20 : FVec F S300x472 .f32 := broadcastInDim S300x472 ![] bcast_S_S300x472 main_cst_6
  let main_v21 : IVec S300x472 1 := cmpf .olt main_v19 main_v20
  let main_c_7 : IVec S_ 1 := constantI S_ 1 1#1
  let main_v22 : IVec S_ 1 := (fun x v => Host.reduce IntOp.andi x v reducesTo_S300x472_S_d0_1 h_S_) main_v21 main_c_7
  let main_v23 : IVec S_ 1 := andi main_v18 main_v22
  let main_v24 : FVec F S300x100 .f32 := Host.absf main_arg9
  let main_cst_8 : FVec F S_ .f32 := constant S_ .f32 0x7F800000#32
  let main_v25 : FVec F S300x100 .f32 := broadcastInDim S300x100 ![] bcast_S_S300x100 main_cst_8
  let main_v26 : IVec S300x100 1 := cmpf .olt main_v24 main_v25
  let main_c_9 : IVec S_ 1 := constantI S_ 1 1#1
  let main_v27 : IVec S_ 1 := (fun x v => Host.reduce IntOp.andi x v reducesTo_S300x100_S_d0_1 h_S_) main_v26 main_c_9
  let main_v28 : IVec S_ 1 := andi main_v23 main_v27
  let main_v29 : FVec F S300 .f32 := Host.absf main_arg10
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  fn_part2 (F := F) main_arg11 main_v33

def fn {F : FTy → Type} [FloatOps F] (main_arg0 : IVec S100000 32) (main_arg1 : IVec S100000 32) (main_arg2 : IVec S100000 32) (main_arg3 : FVec F S100000x172 .f32) (main_arg4 : FVec F S200000x100 .f32) (main_arg5 : IVec S200000 32) (main_arg6 : FVec F S100x1 .f32) (main_arg7 : FVec F S100 .f32) (main_arg8 : FVec F S300x472 .f32) (main_arg9 : FVec F S300x100 .f32) (main_arg10 : FVec F S300 .f32) (main_arg11 : FVec F S300 .f32) : IVec S_ 1 :=
  let main_v0 : FVec F S100000x172 .f32 := Host.absf main_arg3
  let main_cst : FVec F S_ .f32 := constant S_ .f32 0x7F800000#32
  let main_v1 : FVec F S100000x172 .f32 := broadcastInDim S100000x172 ![] bcast_S_S100000x172 main_cst
  let main_v2 : IVec S100000x172 1 := cmpf .olt main_v0 main_v1
  let main_c : IVec S_ 1 := constantI S_ 1 1#1
  let main_v3 : IVec S_ 1 := (fun x v => Host.reduce IntOp.andi x v reducesTo_S100000x172_S_d0_1 h_S_) main_v2 main_c
  let main_v4 : FVec F S200000x100 .f32 := Host.absf main_arg4
  let main_cst_0 : FVec F S_ .f32 := constant S_ .f32 0x7F800000#32
  let main_v5 : FVec F S200000x100 .f32 := broadcastInDim S200000x100 ![] bcast_S_S200000x100 main_cst_0
  let main_v6 : IVec S200000x100 1 := cmpf .olt main_v4 main_v5
  let main_c_1 : IVec S_ 1 := constantI S_ 1 1#1
  let main_v7 : IVec S_ 1 := (fun x v => Host.reduce IntOp.andi x v reducesTo_S200000x100_S_d0_1 h_S_) main_v6 main_c_1
  let main_v8 : IVec S_ 1 := andi main_v3 main_v7
  let main_v9 : FVec F S100x1 .f32 := Host.absf main_arg6
  let main_cst_2 : FVec F S_ .f32 := constant S_ .f32 0x7F800000#32
  let main_v10 : FVec F S100x1 .f32 := broadcastInDim S100x1 ![] bcast_S_S100x1 main_cst_2
  let main_v11 : IVec S100x1 1 := cmpf .olt main_v9 main_v10
  let main_c_3 : IVec S_ 1 := constantI S_ 1 1#1
  let main_v12 : IVec S_ 1 := (fun x v => Host.reduce IntOp.andi x v reducesTo_S100x1_S_d0_1 h_S_) main_v11 main_c_3
  let main_v13 : IVec S_ 1 := andi main_v8 main_v12
  let main_v14 : FVec F S100 .f32 := Host.absf main_arg7
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg8 main_arg9 main_arg10 main_arg11 main_v13 main_v16
-- ==== Kernel.lean ====
abbrev S100000 : Shape := ⟨1, ![100000]⟩
abbrev S100000x172 : Shape := ⟨2, ![100000, 172]⟩
abbrev S200000x100 : Shape := ⟨2, ![200000, 100]⟩
abbrev S200000 : Shape := ⟨1, ![200000]⟩
abbrev S100x1 : Shape := ⟨2, ![100, 1]⟩
abbrev S100 : Shape := ⟨1, ![100]⟩
abbrev S300x472 : Shape := ⟨2, ![300, 472]⟩
abbrev S300x100 : Shape := ⟨2, ![300, 100]⟩
abbrev S300 : Shape := ⟨1, ![300]⟩
abbrev S_ : Shape := ⟨0, ![]⟩
abbrev S100000x1 : Shape := ⟨2, ![100000, 1]⟩
abbrev S1x100 : Shape := ⟨2, ![1, 100]⟩
abbrev S100000x100 : Shape := ⟨2, ![100000, 100]⟩
abbrev S100000x472 : Shape := ⟨2, ![100000, 472]⟩
abbrev S200000x472 : Shape := ⟨2, ![200000, 472]⟩
abbrev S200000x1 : Shape := ⟨2, ![200000, 1]⟩
abbrev S472x300 : Shape := ⟨2, ![472, 300]⟩
abbrev S100x300 : Shape := ⟨2, ![100, 300]⟩
abbrev S1x300 : Shape := ⟨2, ![1, 300]⟩
abbrev S4000x472 : Shape := ⟨2, ![4000, 472]⟩
abbrev S4000x100 : Shape := ⟨2, ![4000, 100]⟩
abbrev S4000x300 : Shape := ⟨2, ![4000, 300]⟩

abbrev nBuf : Space → Nat
  | .hbm => 153
  | .vmem => 10
  | .smem => 0
  | _ => 0

abbrev hbmTy0_0 (i : Nat) : BufTy := match i % 128 with
  | 0 => ⟨S100000, .i32⟩
  | 1 => ⟨S100000, .i32⟩
  | 2 => ⟨S100000, .i32⟩
  | 3 => ⟨S100000x172, .f32⟩
  | 4 => ⟨S200000x100, .f32⟩
  | 5 => ⟨S200000, .i32⟩
  | 6 => ⟨S100x1, .f32⟩
  | 7 => ⟨S100, .f32⟩
  | 8 => ⟨S300x472, .f32⟩
  | 9 => ⟨S300x100, .f32⟩
  | 10 => ⟨S300, .f32⟩
  | 11 => ⟨S300, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000, .i32⟩
  | 21 => ⟨S100000, .i32⟩
  | 22 => ⟨S100000, .f32⟩
  | 23 => ⟨S100000x1, .f32⟩
  | 24 => ⟨S100, .f32⟩
  | 25 => ⟨S1x100, .f32⟩
  | 26 => ⟨S100000x100, .f32⟩
  | 27 => ⟨S100000x100, .f32⟩
  | 28 => ⟨S100000x100, .f32⟩
  | 29 => ⟨S1x100, .f32⟩
  | 30 => ⟨S100000x100, .f32⟩
  | 31 => ⟨S100000x100, .f32⟩
  | 32 => ⟨S100000x100, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000, .i32⟩
  | 42 => ⟨S100000, .i32⟩
  | 43 => ⟨S100000, .f32⟩
  | 44 => ⟨S100000x1, .f32⟩
  | 45 => ⟨S100, .f32⟩
  | 46 => ⟨S1x100, .f32⟩
  | 47 => ⟨S100000x100, .f32⟩
  | 48 => ⟨S100000x100, .f32⟩
  | 49 => ⟨S100000x100, .f32⟩
  | 50 => ⟨S1x100, .f32⟩
  | 51 => ⟨S100000x100, .f32⟩
  | 52 => ⟨S100000x100, .f32⟩
  | 53 => ⟨S100000x100, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x100, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000x100, .f32⟩
  | 72 => ⟨S100000x472, .f32⟩
  | 73 => ⟨S100000x472, .f32⟩
  | 74 => ⟨S200000x472, .f32⟩
  | 75 => ⟨S200000, .i32⟩
  | 76 => ⟨S200000, .i32⟩
  | 77 => ⟨S_, .i32⟩
  | 78 => ⟨S200000, .i32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S200000, .i32⟩
  | 88 => ⟨S_, .i32⟩
  | 89 => ⟨S200000, .i32⟩
  | 90 => ⟨S200000, .i1⟩
  | 91 => ⟨S_, .i32⟩
  | 92 => ⟨S200000, .i32⟩
  | 93 => ⟨S200000, .i32⟩
  | 94 => ⟨S200000, .i32⟩
  | 95 => ⟨S200000x1, .i32⟩
  | 96 => ⟨S200000, .i32⟩
  | 97 => ⟨S200000, .i1⟩
  | 98 => ⟨S200000, .i32⟩
  | 99 => ⟨S_, .i32⟩
  | 100 => ⟨S200000, .i32⟩
  | 101 => ⟨S200000, .i32⟩
  | 102 => ⟨S_, .i32⟩
  | 103 => ⟨S200000, .i32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S200000x1, .i32⟩
  | 112 => ⟨S200000, .i32⟩
  | 113 => ⟨S_, .i32⟩
  | 114 => ⟨S200000, .i32⟩
  | 115 => ⟨S200000, .i1⟩
  | 116 => ⟨S200000x1, .i1⟩
  | 117 => ⟨S_, .i32⟩
  | 118 => ⟨S_, .i32⟩
  | 119 => ⟨S_, .i32⟩
  | 120 => ⟨S200000, .i32⟩
  | 121 => ⟨S200000, .i32⟩
  | 122 => ⟨S_, .i32⟩
  | 123 => ⟨S200000, .i32⟩
  | 124 => ⟨S200000, .i32⟩
  | 125 => ⟨S_, .i32⟩
  | 126 => ⟨S200000, .i32⟩
  | 127 => ⟨S200000, .i1⟩
  | _ => ⟨S100000, .i32⟩

abbrev hbmTy0_1 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x472, .f32⟩
  | 6 => ⟨S_, .f32⟩
  | 7 => ⟨S_, .f32⟩
  | 8 => ⟨S200000x472, .i1⟩
  | 9 => ⟨S200000x472, .f32⟩
  | 10 => ⟨S200000x472, .f32⟩
  | 11 => ⟨S_, .i32⟩
  | 12 => ⟨S200000, .i32⟩
  | 13 => ⟨S200000, .i1⟩
  | 14 => ⟨S_, .i32⟩
  | 15 => ⟨S200000, .i32⟩
  | 16 => ⟨S200000, .i32⟩
  | 17 => ⟨S200000, .i32⟩
  | 18 => ⟨S200000x1, .i32⟩
  | 19 => ⟨S200000, .i32⟩
  | 20 => ⟨S472x300, .f32⟩
  | 21 => ⟨S100x300, .f32⟩
  | 22 => ⟨S1x300, .f32⟩
  | 23 => ⟨S1x300, .f32⟩
  | 24 => ⟨S200000x100, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S4000x472, .f32⟩
  | .local _ .vmem, ⟨1, _⟩ => ⟨S4000x472, .f32⟩
  | .local _ .vmem, ⟨2, _⟩ => ⟨S4000x100, .f32⟩
  | .local _ .vmem, ⟨3, _⟩ => ⟨S4000x100, .f32⟩
  | .local _ .vmem, ⟨4, _⟩ => ⟨S472x300, .f32⟩
  | .local _ .vmem, ⟨5, _⟩ => ⟨S100x300, .f32⟩
  | .local _ .vmem, ⟨6, _⟩ => ⟨S1x300, .f32⟩
  | .local _ .vmem, ⟨7, _⟩ => ⟨S1x300, .f32⟩
  | .local _ .vmem, ⟨8, _⟩ => ⟨S4000x100, .f32⟩
  | .local _ .vmem, ⟨9, _⟩ => ⟨S4000x100, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_3 : Ref sig .tc := ⟨.hbm, 54, rfl⟩
abbrev main_v38 : Ref sig .tc := ⟨.hbm, 55, rfl⟩
abbrev main_v39 : Ref sig .tc := ⟨.hbm, 56, rfl⟩
abbrev main_c_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_5 : Ref sig .tc := ⟨.hbm, 63, rfl⟩
abbrev main_v45 : Ref sig .tc := ⟨.hbm, 64, rfl⟩
abbrev main_v46 : Ref sig .tc := ⟨.hbm, 65, rfl⟩
abbrev main_c_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_7 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_c_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_10 : Ref sig .tc := ⟨.hbm, 88, rfl⟩
abbrev main_v65 : Ref sig .tc := ⟨.hbm, 89, rfl⟩
abbrev main_v66 : Ref sig .tc := ⟨.hbm, 90, rfl⟩
abbrev main_c_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_12 : Ref sig .tc := ⟨.hbm, 99, rfl⟩
abbrev main_call0_v0 : Ref sig .tc := ⟨.hbm, 100, rfl⟩
abbrev main_v74 : Ref sig .tc := ⟨.hbm, 101, rfl⟩
abbrev main_c_13 : Ref sig .tc := ⟨.hbm, 102, rfl⟩
abbrev main_v75 : Ref sig .tc := ⟨.hbm, 103, rfl⟩
abbrev main_c_14 : Ref sig .tc := ⟨.hbm, 104, rfl⟩
abbrev main_v76 : Ref sig .tc := ⟨.hbm, 105, rfl⟩
abbrev main_v77 : Ref sig .tc := ⟨.hbm, 106, rfl⟩
abbrev main_c_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_16 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_17 : Ref sig .tc := ⟨.hbm, 117, rfl⟩
abbrev main_c_18 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_v86 : Ref sig .tc := ⟨.hbm, 124, rfl⟩
abbrev main_c_19 : Ref sig .tc := ⟨.hbm, 125, rfl⟩
abbrev main_v87 : Ref sig .tc := ⟨.hbm, 126, rfl⟩
abbrev main_v88 : Ref sig .tc := ⟨.hbm, 127, rfl⟩
abbrev main_c_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_v94 : Ref sig .tc := ⟨.hbm, 138, rfl⟩
abbrev main_c_21 : Ref sig .tc := ⟨.hbm, 139, rfl⟩
abbrev main_v95 : Ref sig .tc := ⟨.hbm, 140, rfl⟩
abbrev main_v96 : Ref sig .tc := ⟨.hbm, 141, rfl⟩
abbrev main_c_22 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x472 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S472x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  shapeCasts_S100x1_S100 : S100x1.ShapeCasts S100
  bcast_S100_S1x100_1 : S100.BroadcastsInDim S1x100 (![1] : Fin 1 → Fin S1x100.rank)
  bcast_S100000x1_S100000x100_0_1 : S100000x1.BroadcastsInDim S100000x100 (![0, 1] : Fin 2 → Fin S100000x100.rank)
  bcast_S1x100_S100000x100_0_1 : S1x100.BroadcastsInDim S100000x100 (![0, 1] : Fin 2 → Fin S100000x100.rank)
  concatenates_S100000x100_S100000x100_S100000x172_S100000x100_S100000x472_d1 : Shape.Concatenates [S100000x100, S100000x100, S100000x172, S100000x100] S100000x472 1
  concatenates_S100000x472_S100000x472_S200000x472_d0 : Shape.Concatenates [S100000x472, S100000x472] S200000x472 0
  concatenates_S100000_S100000_S200000_d0 : Shape.Concatenates [S100000, S100000] S200000 0
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x472_0_1 : S200000x1.BroadcastsInDim S200000x472 (![0, 1] : Fin 2 → Fin S200000x472.rank)
  bcast_S_S200000x472 : S_.BroadcastsInDim S200000x472 (![] : Fin 0 → Fin S200000x472.rank)
  transposes_S300x472_S472x300_1_0 : S300x472.Transposes [1, 0] S472x300
  transposes_S300x100_S100x300_1_0 : S300x100.Transposes [1, 0] S100x300
  shapeCasts_S300_S1x300 : S300.ShapeCasts S1x300
  inb_S4000x472_S4000x472_0_0 : ∀ a, (![0, 0] : Fin 2 → Nat) a + S4000x472.size a ≤ S4000x472.size a
  h_S4000x472 : 0 < S4000x472.numel
  shapeCasts_S4000x472_S4000x472 : S4000x472.ShapeCasts S4000x472
  inb_S4000x100_S4000x100_0_0 : ∀ a, (![0, 0] : Fin 2 → Nat) a + S4000x100.size a ≤ S4000x100.size a
  h_S4000x100 : 0 < S4000x100.numel
  inb_S472x300_S472x300_0_0 : ∀ a, (![0, 0] : Fin 2 → Nat) a + S472x300.size a ≤ S472x300.size a
  h_S472x300 : 0 < S472x300.numel
  shapeCasts_S472x300_S472x300 : S472x300.ShapeCasts S472x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S4000x300 : S1x300.Broadcasts S4000x300
  inb_S100x300_S100x300_0_0 : ∀ a, (![0, 0] : Fin 2 → Nat) a + S100x300.size a ≤ S100x300.size a
  h_S100x300 : 0 < S100x300.numel
  shapeCasts_S100x300_S100x300 : S100x300.ShapeCasts S100x300
  slices_S4000x300_o0_0_S4000x100 : S4000x300.Slices ![0, 0] S4000x100
  slices_S4000x300_o0_100_S4000x100 : S4000x300.Slices ![0, 100] S4000x100
  slices_S4000x300_o0_200_S4000x100 : S4000x300.Slices ![0, 200] S4000x100
  gather_S200000_S100000x1_S100000_n_0_n_n_0_1_1_wf : GatherDims.WF S200000 S100000x1 S100000 [] [0] [] [0] [] 1 ![1]
  gather_S200000x100_S100000x1_S100000x100_1_0_n_n_0_1_1100_wf : GatherDims.WF S200000x100 S100000x1 S100000x100 [1] [0] [] [0] [] 1 ![1, 100]
  scatter_S200000_S200000x1_S200000_n_0_0_1_wf : ScatterDims.WF S200000 S200000x1 S200000 [] [0] [0] 1
  gather_S200000_S200000x1_S200000_n_0_n_n_0_1_1_wf : GatherDims.WF S200000 S200000x1 S200000 [] [0] [] [0] [] 1 ![1]
  gather_S200000x472_S200000x1_S200000x472_1_0_n_n_0_1_1472_wf : GatherDims.WF S200000x472 S200000x1 S200000x472 [1] [0] [] [0] [] 1 ![1, 472]
  dot_S4000x472_S472x300_S4000x300_1_0_0_1_n_n_wf : DotDims.WF S4000x472 S472x300 S4000x300 [1] [0] [0] [1] [] []
  dot_S4000x100_S100x300_S4000x300_1_0_0_1_n_n_wf : DotDims.WF S4000x100 S100x300 S4000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x472.size a ≤ S200000x472.size a
  hwx0_0 : ∀ i : grid0.Coords, EltTy.bits .f32 = 32 ∨ (Rect.block (s := S200000x472) S4000x472.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x100.size a ≤ S200000x100.size a
  hwx0_1 : ∀ i : grid0.Coords, EltTy.bits .f32 = 32 ∨ (Rect.block (s := S200000x100) S4000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S472x300.size a ≤ S472x300.size a
  hwx0_2 : ∀ i : grid0.Coords, EltTy.bits .f32 = 32 ∨ (Rect.block (s := S472x300) S472x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x300.size a ≤ S100x300.size a
  hwx0_3 : ∀ i : grid0.Coords, EltTy.bits .f32 = 32 ∨ (Rect.block (s := S100x300) S100x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x300.size a ≤ S1x300.size a
  hwx0_5 : ∀ i : grid0.Coords, EltTy.bits .f32 = 32 ∨ (Rect.block (s := S1x300) S1x300.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x100.size a ≤ S200000x100.size a
  hwx0_6 : ∀ i : grid0.Coords, EltTy.bits .f32 = 32 ∨ (Rect.block (s := S200000x100) S4000x100.size (cc0_transform_6 i) (hinb0_6 i)).WholeWords (EltTy.packing .f32)

variable [Facts₀]

def gather_S200000_S100000x1_S100000_n_0_n_n_0_1_1 : GatherDims S200000 S100000x1 S100000 where
  offsetDims := []
  collapsedSliceDims := [0]
  operandBatchingDims := []
  startIndicesBatchingDims := []
  startIndexMap := [0]
  indexVectorDim := 1
  sliceSizes := ![1]
  wf := gather_S200000_S100000x1_S100000_n_0_n_n_0_1_1_wf
def gather_S200000x100_S100000x1_S100000x100_1_0_n_n_0_1_1100 : GatherDims S200000x100 S100000x1 S100000x100 where
  offsetDims := [1]
  collapsedSliceDims := [0]
  operandBatchingDims := []
  startIndicesBatchingDims := []
  startIndexMap := [0]
  indexVectorDim := 1
  sliceSizes := ![1, 100]
  wf := gather_S200000x100_S100000x1_S100000x100_1_0_n_n_0_1_1100_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S200000_S200000x1_S200000_n_0_n_n_0_1_1 : GatherDims S200000 S200000x1 S200000 where
  offsetDims := []
  collapsedSliceDims := [0]
  operandBatchingDims := []
  startIndicesBatchingDims := []
  startIndexMap := [0]
  indexVectorDim := 1
  sliceSizes := ![1]
  wf := gather_S200000_S200000x1_S200000_n_0_n_n_0_1_1_wf
def gather_S200000x472_S200000x1_S200000x472_1_0_n_n_0_1_1472 : GatherDims S200000x472 S200000x1 S200000x472 where
  offsetDims := [1]
  collapsedSliceDims := [0]
  operandBatchingDims := []
  startIndicesBatchingDims := []
  startIndexMap := [0]
  indexVectorDim := 1
  sliceSizes := ![1, 472]
  wf := gather_S200000x472_S200000x1_S200000x472_1_0_n_n_0_1_1472_wf
def dot_S4000x472_S472x300_S4000x300_1_0_0_1_n_n : DotDims S4000x472 S472x300 S4000x300 where
  lhsContracting := [1]
  rhsContracting := [0]
  lhsNonContracting := [0]
  rhsNonContracting := [1]
  lhsBatch := []
  rhsBatch := []
  wf := dot_S4000x472_S472x300_S4000x300_1_0_0_1_n_n_wf
def dot_S4000x100_S100x300_S4000x300_1_0_0_1_n_n : DotDims S4000x100 S100x300 S4000x300 where
  lhsContracting := [1]
  rhsContracting := [0]
  lhsNonContracting := [0]
  rhsNonContracting := [1]
  lhsBatch := []
  rhsBatch := []
  wf := dot_S4000x100_S100x300_S4000x300_1_0_0_1_n_n_wf

abbrev win0_0 : Pipeline.Window sig grid0 :=
  Pipeline.Window.ofSpec (Memref.whole main_v94) S4000x472.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v102) S472x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v103) S100x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v104) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v105) S1x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v106) S4000x100.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000 : Shape := ⟨1, ![100000]⟩
abbrev S100000x172 : Shape := ⟨2, ![100000, 172]⟩
abbrev S200000x100 : Shape := ⟨2, ![200000, 100]⟩
abbrev S200000 : Shape := ⟨1, ![200000]⟩
abbrev S100x1 : Shape := ⟨2, ![100, 1]⟩
abbrev S100 : Shape := ⟨1, ![100]⟩
abbrev S300x472 : Shape := ⟨2, ![300, 472]⟩
abbrev S300x100 : Shape := ⟨2, ![300, 100]⟩
abbrev S300 : Shape := ⟨1, ![300]⟩
abbrev S_ : Shape := ⟨0, ![]⟩
abbrev S100000x1 : Shape := ⟨2, ![100000, 1]⟩
abbrev S1x100 : Shape := ⟨2, ![1, 100]⟩
abbrev S100000x100 : Shape := ⟨2, ![100000, 100]⟩
abbrev S100000x472 : Shape := ⟨2, ![100000, 472]⟩
abbrev S200000x472 : Shape := ⟨2, ![200000, 472]⟩
abbrev S200000x1 : Shape := ⟨2, ![200000, 1]⟩
abbrev S472x300 : Shape := ⟨2, ![472, 300]⟩
abbrev S200000x300 : Shape := ⟨2, ![200000, 300]⟩
abbrev S1x300 : Shape := ⟨2, ![1, 300]⟩
abbrev S100x300 : Shape := ⟨2, ![100, 300]⟩

abbrev nBuf : Space → Nat
  | .hbm => 205
  | .vmem => 0
  | .smem => 0
  | _ => 0

abbrev hbmTy0_0 (i : Nat) : BufTy := match i % 128 with
  | 0 => ⟨S100000, .i32⟩
  | 1 => ⟨S100000, .i32⟩
  | 2 => ⟨S100000, .i32⟩
  | 3 => ⟨S100000x172, .f32⟩
  | 4 => ⟨S200000x100, .f32⟩
  | 5 => ⟨S200000, .i32⟩
  | 6 => ⟨S100x1, .f32⟩
  | 7 => ⟨S100, .f32⟩
  | 8 => ⟨S300x472, .f32⟩
  | 9 => ⟨S300x100, .f32⟩
  | 10 => ⟨S300, .f32⟩
  | 11 => ⟨S300, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000, .i32⟩
  | 21 => ⟨S100000, .i32⟩
  | 22 => ⟨S100000, .f32⟩
  | 23 => ⟨S100000x1, .f32⟩
  | 24 => ⟨S100, .f32⟩
  | 25 => ⟨S1x100, .f32⟩
  | 26 => ⟨S100000x100, .f32⟩
  | 27 => ⟨S100000x100, .f32⟩
  | 28 => ⟨S100000x100, .f32⟩
  | 29 => ⟨S1x100, .f32⟩
  | 30 => ⟨S100000x100, .f32⟩
  | 31 => ⟨S100000x100, .f32⟩
  | 32 => ⟨S100000x100, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000, .i32⟩
  | 42 => ⟨S100000, .i32⟩
  | 43 => ⟨S100000, .f32⟩
  | 44 => ⟨S100000x1, .f32⟩
  | 45 => ⟨S100, .f32⟩
  | 46 => ⟨S1x100, .f32⟩
  | 47 => ⟨S100000x100, .f32⟩
  | 48 => ⟨S100000x100, .f32⟩
  | 49 => ⟨S100000x100, .f32⟩
  | 50 => ⟨S1x100, .f32⟩
  | 51 => ⟨S100000x100, .f32⟩
  | 52 => ⟨S100000x100, .f32⟩
  | 53 => ⟨S100000x100, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x100, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000x100, .f32⟩
  | 72 => ⟨S100000x472, .f32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S100000x100, .f32⟩
  | 82 => ⟨S_, .i32⟩
  | 83 => ⟨S100000, .i32⟩
  | 84 => ⟨S100000, .i1⟩
  | 85 => ⟨S_, .i32⟩
  | 86 => ⟨S100000, .i32⟩
  | 87 => ⟨S100000, .i32⟩
  | 88 => ⟨S100000, .i32⟩
  | 89 => ⟨S100000x1, .i32⟩
  | 90 => ⟨S100000x100, .f32⟩
  | 91 => ⟨S100000x472, .f32⟩
  | 92 => ⟨S200000x472, .f32⟩
  | 93 => ⟨S200000, .i32⟩
  | 94 => ⟨S200000, .i32⟩
  | 95 => ⟨S_, .i32⟩
  | 96 => ⟨S200000, .i32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S200000x1, .i32⟩
  | 105 => ⟨S200000, .i32⟩
  | 106 => ⟨S_, .i32⟩
  | 107 => ⟨S200000, .i32⟩
  | 108 => ⟨S200000, .i1⟩
  | 109 => ⟨S_, .i32⟩
  | 110 => ⟨S200000, .i32⟩
  | 111 => ⟨S200000, .i32⟩
  | 112 => ⟨S200000, .i32⟩
  | 113 => ⟨S200000x1, .i32⟩
  | 114 => ⟨S200000, .i32⟩
  | 115 => ⟨S200000, .i1⟩
  | 116 => ⟨S200000, .i32⟩
  | 117 => ⟨S_, .i32⟩
  | 118 => ⟨S200000, .i32⟩
  | 119 => ⟨S200000, .i32⟩
  | 120 => ⟨S_, .i32⟩
  | 121 => ⟨S200000, .i32⟩
  | 122 => ⟨S_, .i32⟩
  | 123 => ⟨S200000, .i32⟩
  | 124 => ⟨S200000, .i1⟩
  | 125 => ⟨S_, .i32⟩
  | 126 => ⟨S200000, .i32⟩
  | 127 => ⟨S200000, .i32⟩
  | _ => ⟨S100000, .i32⟩

abbrev hbmTy0_1 (i : Nat) : BufTy := match i % 128 with
  | 0 => ⟨S200000, .i32⟩
  | 1 => ⟨S200000x1, .i32⟩
  | 2 => ⟨S200000, .i32⟩
  | 3 => ⟨S_, .i32⟩
  | 4 => ⟨S200000, .i32⟩
  | 5 => ⟨S200000, .i1⟩
  | 6 => ⟨S200000x1, .i1⟩
  | 7 => ⟨S_, .i32⟩
  | 8 => ⟨S_, .i32⟩
  | 9 => ⟨S200000, .i32⟩
  | 10 => ⟨S200000, .i32⟩
  | 11 => ⟨S_, .i32⟩
  | 12 => ⟨S200000, .i32⟩
  | 13 => ⟨S200000, .i1⟩
  | 14 => ⟨S_, .i32⟩
  | 15 => ⟨S200000, .i32⟩
  | 16 => ⟨S200000, .i32⟩
  | 17 => ⟨S200000, .i32⟩
  | 18 => ⟨S200000x1, .i32⟩
  | 19 => ⟨S200000x472, .f32⟩
  | 20 => ⟨S_, .f32⟩
  | 21 => ⟨S_, .f32⟩
  | 22 => ⟨S200000x472, .i1⟩
  | 23 => ⟨S200000x472, .f32⟩
  | 24 => ⟨S200000x472, .f32⟩
  | 25 => ⟨S472x300, .f32⟩
  | 26 => ⟨S200000x300, .f32⟩
  | 27 => ⟨S1x300, .f32⟩
  | 28 => ⟨S200000x300, .f32⟩
  | 29 => ⟨S200000x300, .f32⟩
  | 30 => ⟨S100x300, .f32⟩
  | 31 => ⟨S200000x300, .f32⟩
  | 32 => ⟨S1x300, .f32⟩
  | 33 => ⟨S200000x300, .f32⟩
  | 34 => ⟨S200000x300, .f32⟩
  | 35 => ⟨S200000x100, .f32⟩
  | 36 => ⟨S200000x100, .f32⟩
  | 37 => ⟨S200000x100, .f32⟩
  | 38 => ⟨S200000x100, .f32⟩
  | 39 => ⟨S200000x100, .f32⟩
  | 40 => ⟨S200000x100, .f32⟩
  | 41 => ⟨S200000x100, .f32⟩
  | 42 => ⟨S200000x100, .f32⟩
  | 43 => ⟨S200000x100, .f32⟩
  | 44 => ⟨S_, .f32⟩
  | 45 => ⟨S200000x100, .f32⟩
  | 46 => ⟨S200000x100, .f32⟩
  | 47 => ⟨S_, .f32⟩
  | 48 => ⟨S200000x100, .f32⟩
  | 49 => ⟨S200000x100, .f32⟩
  | 50 => ⟨S200000x100, .f32⟩
  | 51 => ⟨S200000x100, .f32⟩
  | 52 => ⟨S200000x100, .f32⟩
  | 53 => ⟨S_, .f32⟩
  | 54 => ⟨S200000x100, .f32⟩
  | 55 => ⟨S200000x100, .f32⟩
  | 56 => ⟨S_, .f32⟩
  | 57 => ⟨S200000x100, .f32⟩
  | 58 => ⟨S200000x100, .f32⟩
  | 59 => ⟨S200000x100, .f32⟩
  | 60 => ⟨S200000x100, .f32⟩
  | 61 => ⟨S200000x100, .f32⟩
  | 62 => ⟨S_, .f32⟩
  | 63 => ⟨S200000x100, .f32⟩
  | 64 => ⟨S200000x100, .f32⟩
  | 65 => ⟨S200000x100, .f32⟩
  | 66 => ⟨S200000x100, .f32⟩
  | 67 => ⟨S200000x100, .f32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S200000, .i32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_3 : Ref sig .tc := ⟨.hbm, 54, rfl⟩
abbrev main_v38 : Ref sig .tc := ⟨.hbm, 55, rfl⟩
abbrev main_v39 : Ref sig .tc := ⟨.hbm, 56, rfl⟩
abbrev main_c_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_5 : Ref sig .tc := ⟨.hbm, 63, rfl⟩
abbrev main_v45 : Ref sig .tc := ⟨.hbm, 64, rfl⟩
abbrev main_v46 : Ref sig .tc := ⟨.hbm, 65, rfl⟩
abbrev main_c_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_7 : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_9 : Ref sig .tc := ⟨.hbm, 82, rfl⟩
abbrev main_v60 : Ref sig .tc := ⟨.hbm, 83, rfl⟩
abbrev main_v61 : Ref sig .tc := ⟨.hbm, 84, rfl⟩
abbrev main_c_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_11 : Ref sig .tc := ⟨.hbm, 95, rfl⟩
abbrev main_v71 : Ref sig .tc := ⟨.hbm, 96, rfl⟩
abbrev main_c_12 : Ref sig .tc := ⟨.hbm, 97, rfl⟩
abbrev main_v72 : Ref sig .tc := ⟨.hbm, 98, rfl⟩
abbrev main_v73 : Ref sig .tc := ⟨.hbm, 99, rfl⟩
abbrev main_c_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_14 : Ref sig .tc := ⟨.hbm, 106, rfl⟩
abbrev main_v79 : Ref sig .tc := ⟨.hbm, 107, rfl⟩
abbrev main_v80 : Ref sig .tc := ⟨.hbm, 108, rfl⟩
abbrev main_c_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_16 : Ref sig .tc := ⟨.hbm, 117, rfl⟩
abbrev main_call0_v0 : Ref sig .tc := ⟨.hbm, 118, rfl⟩
abbrev main_v88 : Ref sig .tc := ⟨.hbm, 119, rfl⟩
abbrev main_c_17 : Ref sig .tc := ⟨.hbm, 120, rfl⟩
abbrev main_v89 : Ref sig .tc := ⟨.hbm, 121, rfl⟩
abbrev main_c_18 : Ref sig .tc := ⟨.hbm, 122, rfl⟩
abbrev main_v90 : Ref sig .tc := ⟨.hbm, 123, rfl⟩
abbrev main_v91 : Ref sig .tc := ⟨.hbm, 124, rfl⟩
abbrev main_c_19 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_20 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_21 : Ref sig .tc := ⟨.hbm, 135, rfl⟩
abbrev main_call1_v0 : Ref sig .tc := ⟨.hbm, 136, rfl⟩
abbrev main_call1_v1 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_c_23 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst : Ref sig .tc := ⟨.hbm, 148, rfl⟩
abbrev main_call2_v0 : Ref sig .tc := ⟨.hbm, 149, rfl⟩
abbrev main_call2_v1 : Ref sig .tc := ⟨.hbm, 150, rfl⟩
abbrev main_call2_v2 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_24 : Ref sig .tc := ⟨.hbm, 172, rfl⟩
abbrev main_v128 : Ref sig .tc := ⟨.hbm, 173, rfl⟩
abbrev main_v129 : Ref sig .tc := ⟨.hbm, 174, rfl⟩
abbrev main_cst_25 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_26 : Ref sig .tc := ⟨.hbm, 181, rfl⟩
abbrev main_v135 : Ref sig .tc := ⟨.hbm, 182, rfl⟩
abbrev main_v136 : Ref sig .tc := ⟨.hbm, 183, rfl⟩
abbrev main_cst_27 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_28 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_c_29 : Ref sig .tc := ⟨.hbm, 196, rfl⟩
abbrev main_v147 : Ref sig .tc := ⟨.hbm, 197, rfl⟩
abbrev main_v148 : Ref sig .tc := ⟨.hbm, 198, rfl⟩
abbrev main_c_30 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  shapeCasts_S100x1_S100 : S100x1.ShapeCasts S100
  bcast_S100_S1x100_1 : S100.BroadcastsInDim S1x100 (![1] : Fin 1 → Fin S1x100.rank)
  bcast_S100000x1_S100000x100_0_1 : S100000x1.BroadcastsInDim S100000x100 (![0, 1] : Fin 2 → Fin S100000x100.rank)
  bcast_S1x100_S100000x100_0_1 : S1x100.BroadcastsInDim S100000x100 (![0, 1] : Fin 2 → Fin S100000x100.rank)
  concatenates_S100000x100_S100000x100_S100000x172_S100000x100_S100000x472_d1 : Shape.Concatenates [S100000x100, S100000x100, S100000x172, S100000x100] S100000x472 1
  concatenates_S100000x472_S100000x472_S200000x472_d0 : Shape.Concatenates [S100000x472, S100000x472] S200000x472 0
  concatenates_S100000_S100000_S200000_d0 : Shape.Concatenates [S100000, S100000] S200000 0
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x472_0_1 : S200000x1.BroadcastsInDim S200000x472 (![0, 1] : Fin 2 → Fin S200000x472.rank)
  bcast_S_S200000x472 : S_.BroadcastsInDim S200000x472 (![] : Fin 0 → Fin S200000x472.rank)
  transposes_S300x472_S472x300_1_0 : S300x472.Transposes [1, 0] S472x300
  bcast_S300_S1x300_1 : S300.BroadcastsInDim S1x300 (![1] : Fin 1 → Fin S1x300.rank)
  bcast_S1x300_S200000x300_0_1 : S1x300.BroadcastsInDim S200000x300 (![0, 1] : Fin 2 → Fin S200000x300.rank)
  transposes_S300x100_S100x300_1_0 : S300x100.Transposes [1, 0] S100x300
  slices_S200000x300_S200000x100_0_0 : S200000x300.Slices ![0, 0] S200000x100
  slices_S200000x300_S200000x100_0_100 : S200000x300.Slices ![0, 100] S200000x100
  slices_S200000x300_S200000x100_0_200 : S200000x300.Slices ![0, 200] S200000x100
  bcast_S_S200000x100 : S_.BroadcastsInDim S200000x100 (![] : Fin 0 → Fin S200000x100.rank)
  gather_S200000_S100000x1_S100000_n_0_n_n_0_1_1_wf : GatherDims.WF S200000 S100000x1 S100000 [] [0] [] [0] [] 1 ![1]
  gather_S200000x100_S100000x1_S100000x100_1_0_n_n_0_1_1100_wf : GatherDims.WF S200000x100 S100000x1 S100000x100 [1] [0] [] [0] [] 1 ![1, 100]
  scatter_S200000_S200000x1_S200000_n_0_0_1_wf : ScatterDims.WF S200000 S200000x1 S200000 [] [0] [0] 1
  gather_S200000_S200000x1_S200000_n_0_n_n_0_1_1_wf : GatherDims.WF S200000 S200000x1 S200000 [] [0] [] [0] [] 1 ![1]
  gather_S200000x472_S200000x1_S200000x472_1_0_n_n_0_1_1472_wf : GatherDims.WF S200000x472 S200000x1 S200000x472 [1] [0] [] [0] [] 1 ![1, 472]
  dot_S200000x472_S472x300_S200000x300_1_0_0_1_n_n_wf : DotDims.WF S200000x472 S472x300 S200000x300 [1] [0] [0] [1] [] []
  dot_S200000x100_S100x300_S200000x300_1_0_0_1_n_n_wf : DotDims.WF S200000x100 S100x300 S200000x300 [1] [0] [0] [1] [] []

variable [Facts₀]

def gather_S200000_S100000x1_S100000_n_0_n_n_0_1_1 : GatherDims S200000 S100000x1 S100000 where
  offsetDims := []
  collapsedSliceDims := [0]
  operandBatchingDims := []
  startIndicesBatchingDims := []
  startIndexMap := [0]
  indexVectorDim := 1
  sliceSizes := ![1]
  wf := gather_S200000_S100000x1_S100000_n_0_n_n_0_1_1_wf
def gather_S200000x100_S100000x1_S100000x100_1_0_n_n_0_1_1100 : GatherDims S200000x100 S100000x1 S100000x100 where
  offsetDims := [1]
  collapsedSliceDims := [0]
  operandBatchingDims := []
  startIndicesBatchingDims := []
  startIndexMap := [0]
  indexVectorDim := 1
  sliceSizes := ![1, 100]
  wf := gather_S200000x100_S100000x1_S100000x100_1_0_n_n_0_1_1100_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S200000_S200000x1_S200000_n_0_n_n_0_1_1 : GatherDims S200000 S200000x1 S200000 where
  offsetDims := []
  collapsedSliceDims := [0]
  operandBatchingDims := []
  startIndicesBatchingDims := []
  startIndexMap := [0]
  indexVectorDim := 1
  sliceSizes := ![1]
  wf := gather_S200000_S200000x1_S200000_n_0_n_n_0_1_1_wf
def gather_S200000x472_S200000x1_S200000x472_1_0_n_n_0_1_1472 : GatherDims S200000x472 S200000x1 S200000x472 where
  offsetDims := [1]
  collapsedSliceDims := [0]
  operandBatchingDims := []
  startIndicesBatchingDims := []
  startIndexMap := [0]
  indexVectorDim := 1
  sliceSizes := ![1, 472]
  wf := gather_S200000x472_S200000x1_S200000x472_1_0_n_n_0_1_1472_wf
def dot_S200000x472_S472x300_S200000x300_1_0_0_1_n_n : DotDims S200000x472 S472x300 S200000x300 where
  lhsContracting := [1]
  rhsContracting := [0]
  lhsNonContracting := [0]
  rhsNonContracting := [1]
  lhsBatch := []
  rhsBatch := []
  wf := dot_S200000x472_S472x300_S200000x300_1_0_0_1_n_n_wf
def dot_S200000x100_S100x300_S200000x300_1_0_0_1_n_n : DotDims S200000x100 S100x300 S200000x300 where
  lhsContracting := [1]
  rhsContracting := [0]
  lhsNonContracting := [0]
  rhsNonContracting := [1]
  lhsBatch := []
  rhsBatch := []
  wf := dot_S200000x100_S100x300_S200000x300_1_0_0_1_n_n_wf

class Facts : Prop extends Facts₀ where

variable [Facts]
-- ==== Proof.RegionBits.lean ====
/-
  The one region of `Cert.Kernel`, run to its end.

  @main is seven stretches of host operations (the gathers of the memory rows and of the last update times, the time
  encodings, the choice of each node's latest message, the transposed weights and the bias rows) followed by ONE
  pallas_call over a grid of 50 points. At point `t` the body is handed rows `4000·t … 4000·t + 3999` of the
  aggregated messages (window 0) and of the memory (window 1), the two transposed weight matrices (windows 2, 3) and
  the two bias rows (windows 4, 5) whole, and leaves rows `4000·t …` of the new memory in window 6. The body loads
  each input block whole, computes, and stores the output block whole: so what window 6's buffer holds after the body
  is one store's value over the input blocks (`newRows`).

  Stated for any reading `F` of the floats: the frame holds of the words as well as of the extended reals.
-/
import proofs.«154772_j39754217292129_1_alg».proof.Proof.Gen.Kernel.Launch
import proofs.«154772_j39754217292129_1_alg».proof.Proof.Gen.Kernel.Skeleton
import proofs.«154772_j39754217292129_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What each buffer of core `c` holds when the region is entered: the host operations before it, applied in
    order to the launch contents. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

/-- No host operation allocates: each writes a buffer the program declares. -/
theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor

/-- @main is its host operations, stretch after stretch, then the region: so the region finds `V`. -/
theorem entry (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨fresh0, fresh1, fresh2, fresh3, fresh4, fresh5, fresh6⟩) main_chain

/-- An argument array is written by no host operation (each writes a value of its own), so the region finds it as
    launched: the operations' written buffers listed, each another buffer than the argument's. -/
local macro "unwritten " r:term : term => `(StableHlo.after_of_forall_not_mem (b := Proc.devRef .tc $r) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))))

theorem V_arg0 (c : Dev nD) : V m c main_arg0 = m ((c : Thread nD τ).loc main_arg0) := unwritten main_arg0
theorem V_arg1 (c : Dev nD) : V m c main_arg1 = m ((c : Thread nD τ).loc main_arg1) := unwritten main_arg1
theorem V_arg2 (c : Dev nD) : V m c main_arg2 = m ((c : Thread nD τ).loc main_arg2) := unwritten main_arg2
theorem V_arg3 (c : Dev nD) : V m c main_arg3 = m ((c : Thread nD τ).loc main_arg3) := unwritten main_arg3
theorem V_arg4 (c : Dev nD) : V m c main_arg4 = m ((c : Thread nD τ).loc main_arg4) := unwritten main_arg4
theorem V_arg5 (c : Dev nD) : V m c main_arg5 = m ((c : Thread nD τ).loc main_arg5) := unwritten main_arg5
theorem V_arg6 (c : Dev nD) : V m c main_arg6 = m ((c : Thread nD τ).loc main_arg6) := unwritten main_arg6
theorem V_arg7 (c : Dev nD) : V m c main_arg7 = m ((c : Thread nD τ).loc main_arg7) := unwritten main_arg7
theorem V_arg8 (c : Dev nD) : V m c main_arg8 = m ((c : Thread nD τ).loc main_arg8) := unwritten main_arg8
theorem V_arg9 (c : Dev nD) : V m c main_arg9 = m ((c : Thread nD τ).loc main_arg9) := unwritten main_arg9
theorem V_arg10 (c : Dev nD) : V m c main_arg10 = m ((c : Thread nD τ).loc main_arg10) := unwritten main_arg10
theorem V_arg11 (c : Dev nD) : V m c main_arg11 = m ((c : Thread nD τ).loc main_arg11) := unwritten main_arg11

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

abbrev rA : Rect S4000x472 := Rect.unit (s := S4000x472) ![0, 0] S4000x472.size inb_S4000x472_S4000x472_0_0
abbrev rM : Rect S4000x100 := Rect.unit (s := S4000x100) ![0, 0] S4000x100.size inb_S4000x100_S4000x100_0_0
abbrev rWi : Rect S472x300 := Rect.unit (s := S472x300) ![0, 0] S472x300.size inb_S472x300_S472x300_0_0
abbrev rWh : Rect S100x300 := Rect.unit (s := S100x300) ![0, 0] S100x300.size inb_S100x300_S100x300_0_0
abbrev rB : Rect S1x300 := Rect.unit (s := S1x300) ![0, 0] S1x300.size inb_S1x300_S1x300_0_0

/-- The output window's buffer after the body, from the six input blocks: its one store, of the gated update of the
    memory rows (the body's arithmetic as one term, `k0_pay1`), over the whole block. -/
def newRows (x0 : Vec F S4000x472 .f32) (x1 : Vec F S4000x100 .f32) (x2 : Vec F S472x300 .f32) (x3 : Vec F S100x300 .f32)
    (x4 x5 : Vec F S1x300 .f32) : Vec F S4000x100 .f32 :=
  View.canon [⟨rM, k0_pay1 (View.ld x0 rA) (View.ld x1 rM) (View.ld x2 rWi) (View.ld x4 rB) (View.ld x3 rWh) (View.ld x5 rB)⟩]

/-- The one store covers the block. -/
theorem covered (p0 : Vec F S4000x100 .f32) (y : S4000x100.Idx) :
    ∃ pc ∈ ([⟨rM, p0⟩] : List (View.Piece (Elt F) S4000x100 .f32)), y ∈ pc.1.set :=
  View.cover_of_tiled [⟨rM, p0⟩] S4000x100.size (by rfl) y

/-! ## The body's triple -/

set_option maxHeartbeats 4000000 in
/-- The body on whole buffers, the six inputs' at read contents and the output's at anything, runs to the end leaving the
    inputs' as they were and the output's at `newRows` of them. -/
theorem body_triple (c : Dev nD) (E : Set ℕ) (i : grid0.Coords)
    (a1 : Memref sig .tc .vmem S4000x472 .f32) (h1 : a1.IsWhole) (a2 : Memref sig .tc .vmem S4000x100 .f32) (h2 : a2.IsWhole)
    (a3 : Memref sig .tc .vmem S472x300 .f32) (h3 : a3.IsWhole) (a4 : Memref sig .tc .vmem S100x300 .f32) (h4 : a4.IsWhole)
    (a5 : Memref sig .tc .vmem S1x300 .f32) (h5 : a5.IsWhole) (a6 : Memref sig .tc .vmem S1x300 .f32) (h6 : a6.IsWhole)
    (a7 : Memref sig .tc .vmem S4000x100 .f32) (h7 : a7.IsWhole)
    (x0 : Vec F S4000x472 .f32) (x1 : Vec F S4000x100 .f32) (x2 : Vec F S472x300 .f32) (x3 : Vec F S100x300 .f32)
    (x4 x5 : Vec F S1x300 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (newRows x0 x1 x2 x3 x4 x5)) -∗ K ⟨⟩))
      ⊢ wp frame (wpE (defs₀ (F := F)) Variants.none c none) E (cc0__gru_kernel i a1 h1 a2 h2 a3 h3 a4 h4 a5 h5 a6 h6 a7 h7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covered _)

/-! ## The pipeline's proof data -/

/-- The arrays as the region finds them; after the body at point `t` each input's buffer at its block and the output's
    at `newRows` of the six input blocks; nothing of its own kept between points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newRows (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = newRows (iblk m c 0 t) (iblk m c 1 t) (iblk m c 2 t) (iblk m c 3 t) (iblk m c 4 t) (iblk m c 5 t) := by dsimp only [dats]

/-- An input window's current buffer holds its block at every point — fetched there, or, where the block index has not
    moved since the point before (the weights and the biases after the first point), left in place by the body. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq m c 0]; try rfl) t d).trans
    (by unfold Dat.fetched Dat.blockOf iblk; rw [A_eq m c 0]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq m c 1]; try rfl) t d).trans
    (by unfold Dat.fetched Dat.blockOf iblk; rw [A_eq m c 1]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq m c 2]; try rfl) t d).trans
    (by unfold Dat.fetched Dat.blockOf iblk; rw [A_eq m c 2]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq m c 3]; try rfl) t d).trans
    (by unfold Dat.fetched Dat.blockOf iblk; rw [A_eq m c 3]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq m c 4]; try rfl) t d).trans
    (by unfold Dat.fetched Dat.blockOf iblk; rw [A_eq m c 4]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq m c 5]; try rfl) t d).trans
    (by unfold Dat.fetched Dat.blockOf iblk; rw [A_eq m c 5]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the triple applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, and at the end every array of
    the pipeline holds what the proof data computes — an input its contents at the region's entry, the output those
    overwritten block by block by what the body left — and every other unscoped buffer what the region found. -/
theorem run : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := entry m Variants.none) (hA := A_eq m) (hΦ := fun _ _ => rfl)

/-- The twelve argument arrays end as launched: the memory, which window 1 stages, is an input of the pipeline; the
    others no window's array; and no host operation writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      ((h c).2 main_arg0 (Pipeline.mem_restRefs_of main_arg0 (by decide) (by decide))).trans (V_arg0 m c),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c),
      ((h c).1 1).trans (((dats m 0 c).arrAt_in 1 rfl _).trans ((A_eq m c 1).trans (V_arg4 m c))),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c)⟩) (run m ρ)

end Cert.Kernel.Region

end
-- ==== Proof.RegionIdeal.lean ====
/-
  The one region of `Cert.KernelIdeal`, run to its end.

  @main is seven stretches of host operations (the gathers of the memory rows and of the last update times, the time
  encodings, the choice of each node's latest message, the transposed weights and the bias rows) followed by ONE
  pallas_call over a grid of 50 points. At point `t` the body is handed rows `4000·t … 4000·t + 3999` of the
  aggregated messages (window 0) and of the memory (window 1), the two transposed weight matrices (windows 2, 3) and
  the two bias rows (windows 4, 5) whole, and leaves rows `4000·t …` of the new memory in window 6. The body loads
  each input block whole, computes, and stores the output block whole: so what window 6's buffer holds after the body
  is one store's value over the input blocks (`newRows`).

  Stated for any reading `F` of the floats: the frame holds of the words as well as of the extended reals.
-/
import proofs.«154772_j39754217292129_1_alg».proof.Proof.Gen.KernelIdeal.Launch
import proofs.«154772_j39754217292129_1_alg».proof.Proof.Gen.KernelIdeal.Skeleton
import proofs.«154772_j39754217292129_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What each buffer of core `c` holds when the region is entered: the host operations before it, applied in
    order to the launch contents. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

/-- No host operation allocates: each writes a buffer the program declares. -/
theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor

/-- @main is its host operations, stretch after stretch, then the region: so the region finds `V`. -/
theorem entry (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨fresh0, fresh1, fresh2, fresh3, fresh4, fresh5, fresh6⟩) main_chain

/-- An argument array is written by no host operation (each writes a value of its own), so the region finds it as
    launched: the operations' written buffers listed, each another buffer than the argument's. -/
local macro "unwritten " r:term : term => `(StableHlo.after_of_forall_not_mem (b := Proc.devRef .tc $r) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))))

theorem V_arg0 (c : Dev nD) : V m c main_arg0 = m ((c : Thread nD τ).loc main_arg0) := unwritten main_arg0
theorem V_arg1 (c : Dev nD) : V m c main_arg1 = m ((c : Thread nD τ).loc main_arg1) := unwritten main_arg1
theorem V_arg2 (c : Dev nD) : V m c main_arg2 = m ((c : Thread nD τ).loc main_arg2) := unwritten main_arg2
theorem V_arg3 (c : Dev nD) : V m c main_arg3 = m ((c : Thread nD τ).loc main_arg3) := unwritten main_arg3
theorem V_arg4 (c : Dev nD) : V m c main_arg4 = m ((c : Thread nD τ).loc main_arg4) := unwritten main_arg4
theorem V_arg5 (c : Dev nD) : V m c main_arg5 = m ((c : Thread nD τ).loc main_arg5) := unwritten main_arg5
theorem V_arg6 (c : Dev nD) : V m c main_arg6 = m ((c : Thread nD τ).loc main_arg6) := unwritten main_arg6
theorem V_arg7 (c : Dev nD) : V m c main_arg7 = m ((c : Thread nD τ).loc main_arg7) := unwritten main_arg7
theorem V_arg8 (c : Dev nD) : V m c main_arg8 = m ((c : Thread nD τ).loc main_arg8) := unwritten main_arg8
theorem V_arg9 (c : Dev nD) : V m c main_arg9 = m ((c : Thread nD τ).loc main_arg9) := unwritten main_arg9
theorem V_arg10 (c : Dev nD) : V m c main_arg10 = m ((c : Thread nD τ).loc main_arg10) := unwritten main_arg10
theorem V_arg11 (c : Dev nD) : V m c main_arg11 = m ((c : Thread nD τ).loc main_arg11) := unwritten main_arg11

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

abbrev rA : Rect S4000x472 := Rect.unit (s := S4000x472) ![0, 0] S4000x472.size inb_S4000x472_S4000x472_0_0
abbrev rM : Rect S4000x100 := Rect.unit (s := S4000x100) ![0, 0] S4000x100.size inb_S4000x100_S4000x100_0_0
abbrev rWi : Rect S472x300 := Rect.unit (s := S472x300) ![0, 0] S472x300.size inb_S472x300_S472x300_0_0
abbrev rWh : Rect S100x300 := Rect.unit (s := S100x300) ![0, 0] S100x300.size inb_S100x300_S100x300_0_0
abbrev rB : Rect S1x300 := Rect.unit (s := S1x300) ![0, 0] S1x300.size inb_S1x300_S1x300_0_0

/-- The output window's buffer after the body, from the six input blocks: its one store, of the gated update of the
    memory rows (the body's arithmetic as one term, `k0_pay1`), over the whole block. -/
def newRows (x0 : Vec F S4000x472 .f32) (x1 : Vec F S4000x100 .f32) (x2 : Vec F S472x300 .f32) (x3 : Vec F S100x300 .f32)
    (x4 x5 : Vec F S1x300 .f32) : Vec F S4000x100 .f32 :=
  View.canon [⟨rM, k0_pay1 (View.ld x0 rA) (View.ld x1 rM) (View.ld x2 rWi) (View.ld x4 rB) (View.ld x3 rWh) (View.ld x5 rB)⟩]

/-- The one store covers the block. -/
theorem covered (p0 : Vec F S4000x100 .f32) (y : S4000x100.Idx) :
    ∃ pc ∈ ([⟨rM, p0⟩] : List (View.Piece (Elt F) S4000x100 .f32)), y ∈ pc.1.set :=
  View.cover_of_tiled [⟨rM, p0⟩] S4000x100.size (by rfl) y

/-! ## The body's triple -/

set_option maxHeartbeats 4000000 in
/-- The body on whole buffers, the six inputs' at read contents and the output's at anything, runs to the end leaving the
    inputs' as they were and the output's at `newRows` of them. -/
theorem body_triple (c : Dev nD) (E : Set ℕ) (i : grid0.Coords)
    (a1 : Memref sig .tc .vmem S4000x472 .f32) (h1 : a1.IsWhole) (a2 : Memref sig .tc .vmem S4000x100 .f32) (h2 : a2.IsWhole)
    (a3 : Memref sig .tc .vmem S472x300 .f32) (h3 : a3.IsWhole) (a4 : Memref sig .tc .vmem S100x300 .f32) (h4 : a4.IsWhole)
    (a5 : Memref sig .tc .vmem S1x300 .f32) (h5 : a5.IsWhole) (a6 : Memref sig .tc .vmem S1x300 .f32) (h6 : a6.IsWhole)
    (a7 : Memref sig .tc .vmem S4000x100 .f32) (h7 : a7.IsWhole)
    (x0 : Vec F S4000x472 .f32) (x1 : Vec F S4000x100 .f32) (x2 : Vec F S472x300 .f32) (x3 : Vec F S100x300 .f32)
    (x4 x5 : Vec F S1x300 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (newRows x0 x1 x2 x3 x4 x5)) -∗ K ⟨⟩))
      ⊢ wp frame (wpE (defs₀ (F := F)) Variants.none c none) E (cc0__gru_kernel i a1 h1 a2 h2 a3 h3 a4 h4 a5 h5 a6 h6 a7 h7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covered _)

/-! ## The pipeline's proof data -/

/-- The arrays as the region finds them; after the body at point `t` each input's buffer at its block and the output's
    at `newRows` of the six input blocks; nothing of its own kept between points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newRows (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = newRows (iblk m c 0 t) (iblk m c 1 t) (iblk m c 2 t) (iblk m c 3 t) (iblk m c 4 t) (iblk m c 5 t) := by dsimp only [dats]

/-- An input window's current buffer holds its block at every point — fetched there, or, where the block index has not
    moved since the point before (the weights and the biases after the first point), left in place by the body. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq m c 0]; try rfl) t d).trans
    (by unfold Dat.fetched Dat.blockOf iblk; rw [A_eq m c 0]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq m c 1]; try rfl) t d).trans
    (by unfold Dat.fetched Dat.blockOf iblk; rw [A_eq m c 1]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq m c 2]; try rfl) t d).trans
    (by unfold Dat.fetched Dat.blockOf iblk; rw [A_eq m c 2]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq m c 3]; try rfl) t d).trans
    (by unfold Dat.fetched Dat.blockOf iblk; rw [A_eq m c 3]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq m c 4]; try rfl) t d).trans
    (by unfold Dat.fetched Dat.blockOf iblk; rw [A_eq m c 4]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq m c 5]; try rfl) t d).trans
    (by unfold Dat.fetched Dat.blockOf iblk; rw [A_eq m c 5]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the triple applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, and at the end every array of
    the pipeline holds what the proof data computes — an input its contents at the region's entry, the output those
    overwritten block by block by what the body left — and every other unscoped buffer what the region found. -/
theorem run : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := entry m Variants.none) (hA := A_eq m) (hΦ := fun _ _ => rfl)

/-- The twelve argument arrays end as launched: the memory, which window 1 stages, is an input of the pipeline; the
    others no window's array; and no host operation writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      ((h c).2 main_arg0 (Pipeline.mem_restRefs_of main_arg0 (by decide) (by decide))).trans (V_arg0 m c),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c),
      ((h c).1 1).trans (((dats m 0 c).arrAt_in 1 rfl _).trans ((A_eq m c 1).trans (V_arg4 m c))),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c)⟩) (run m ρ)

end Cert.KernelIdeal.Region

end
-- ==== Proof.GruCell.lean ====
/-
  One node's gated update.

  A node holds a memory row `mr` of 100 numbers and receives an aggregated message row `a` of 472 numbers. With the
  transposed input weights `wi` (472 × 300), the transposed hidden weights `wh` (100 × 300) and the two bias rows
  `bi`, `bh` (1 × 300), the input-side and hidden-side pre-activations at column `j < 300` are

      gateI j = Σ_k a k · wi (k, j) + bi j        gateH j = Σ_k mr k · wh (k, j) + bh j,

  whose columns fall in three bands of 100: reset (`lo`), update (`mid`) and candidate (`hi`). Entry `h < 100`
  of the new memory row is

      (1 − z) · tanh (gateI (hi h) + r · gateH (hi h)) + z · mr h,
      r = logistic (gateI (lo h) + gateH (lo h)),   z = logistic (gateI (mid h) + gateH (mid h)),

  on the extended reals, every operation the exact one. Both programs compute this, entry by entry, with the sums taken
  in the same order, so no law of arithmetic is needed to join them and nothing has to be finite.
-/
import Idealize.ShloMosaic.Lib.ValueIdx
import Idealize.ShloMosaic.PureOps.Ideal

noncomputable section
open scoped BigOperators
namespace Cert.GruCell
open Idealize.ShloMosaic Idealize.ShloMosaic.ValueIdx

/-- Column `h` of the reset band. -/
def lo (h : Fin 100) : Fin 300 := ⟨h.val, by omega⟩
/-- Column `h` of the update band. -/
def mid (h : Fin 100) : Fin 300 := ⟨100 + h.val, by omega⟩
/-- Column `h` of the candidate band. -/
def hi (h : Fin 100) : Fin 300 := ⟨200 + h.val, by omega⟩

/-- The input-side pre-activation at column `j`. -/
def gateI (a : Fin 472 → EReal) (wi : (⟨2, ![472, 300]⟩ : Shape).Idx → EReal) (bi : Fin 300 → EReal)
    (j : Fin 300) : EReal :=
  (∑ k : Fin 472, a k * wi (ix2 k j)) + bi j

/-- The hidden-side pre-activation at column `j`. -/
def gateH (mr : Fin 100 → EReal) (wh : (⟨2, ![100, 300]⟩ : Shape).Idx → EReal) (bh : Fin 300 → EReal)
    (j : Fin 300) : EReal :=
  (∑ k : Fin 100, mr k * wh (ix2 k j)) + bh j

/-- Entry `h` of the node's new memory row. -/
def cell (a : Fin 472 → EReal) (mr : Fin 100 → EReal) (wi : (⟨2, ![472, 300]⟩ : Shape).Idx → EReal)
    (wh : (⟨2, ![100, 300]⟩ : Shape).Idx → EReal) (bi bh : Fin 300 → EReal) (h : Fin 100) : EReal :=
  (1 - Ideal.logistic (gateI a wi bi (mid h) + gateH mr wh bh (mid h)))
      * Ideal.tanh (gateI a wi bi (hi h) + Ideal.logistic (gateI a wi bi (lo h) + gateH mr wh bh (lo h)) * gateH mr wh bh (hi h))
    + Ideal.logistic (gateI a wi bi (mid h) + gateH mr wh bh (mid h)) * mr h

/-- The new memory of all 200000 nodes: node `n`'s row is the gated update of its own message row and memory row. -/
def newMemory (A : (⟨2, ![200000, 472]⟩ : Shape).Idx → EReal) (M : (⟨2, ![200000, 100]⟩ : Shape).Idx → EReal)
    (wi : (⟨2, ![472, 300]⟩ : Shape).Idx → EReal) (wh : (⟨2, ![100, 300]⟩ : Shape).Idx → EReal)
    (bi bh : Fin 300 → EReal) : (⟨2, ![200000, 100]⟩ : Shape).Idx → EReal :=
  fun i => cell (fun k => A (ix2 (i 0) k)) (fun k => M (ix2 (i 0) k)) wi wh bi bh (i 1)

/-- Read at node `n`, entry `h`. -/
theorem newMemory_at (A : (⟨2, ![200000, 472]⟩ : Shape).Idx → EReal) (M : (⟨2, ![200000, 100]⟩ : Shape).Idx → EReal)
    (wi : (⟨2, ![472, 300]⟩ : Shape).Idx → EReal) (wh : (⟨2, ![100, 300]⟩ : Shape).Idx → EReal)
    (bi bh : Fin 300 → EReal) (n : Fin 200000) (h : Fin 100) :
    newMemory A M wi wh bi bh (ix2 n h) = cell (fun k => A (ix2 n k)) (fun k => M (ix2 n k)) wi wh bi bh h := rfl

end Cert.GruCell

end
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.LibRecipDiv.lean ====
/-
  Dividing by a count on the extended reals.

  Off zero, the exact quotient x / c is the product of x with 1 / c — also when x or c is infinite — so a program that
  multiplies by a reciprocal agrees with one that divides. A count clamped below by one (a maximum with one) is at least
  one, hence not zero, whatever the count is. The binary32 pattern 0x3F800000 denotes one.
-/
import Idealize.ShloMosaic.PureOps.Ideal

noncomputable section
namespace Cert.RecipDiv
open Idealize.ShloMosaic

/-- The binary32 pattern of one denotes one. -/
theorem one_f32 : Ideal.ofBits .f32 0x3F800000#32 = 1 := by
  simp [Ideal.ofBits, Ideal.ieee, -EReal.coe_mul]; norm_num

/-- A maximum with one is at least one, so it is not zero. -/
theorem max_one_ne_zero (n : EReal) : max n 1 ≠ 0 :=
  (lt_of_lt_of_le zero_lt_one (le_max_right n 1)).ne'

/-- Off zero, a quotient is the product with the reciprocal of the divisor — at the infinities too. -/
theorem div_eq_mul_recip (x c : EReal) (hc : c ≠ 0) : Ideal.div x c = x * Ideal.div 1 c := by
  simp only [Ideal.div, if_neg hc, one_mul]

end Cert.RecipDiv

end
-- ==== Proof.KernelRows.lean ====
/-
  What the kernel's body stores, read at an entry.

  The body multiplies the block of 4000 aggregated message rows by the transposed input weights and the block of 4000
  memory rows by the transposed hidden weights (both into a zero accumulator, so each product entry is a plain sum over
  the shared axis), adds the bias rows broadcast down the 4000 rows, cuts each 300-column result into its three bands of
  100 columns, and combines them with the gates. Entry (p, q) of the stored block is therefore one node's gated update
  (`GruCell.cell`) of row p of the two blocks.
-/
import proofs.«154772_j39754217292129_1_alg».proof.Proof.Gen.KernelIdeal.Skeleton
import proofs.«154772_j39754217292129_1_alg».proof.Proof.GruCell
import proofs.«154772_j39754217292129_1_alg».proof.Proof.LibPlainDot
import proofs.«154772_j39754217292129_1_alg».proof.Proof.LibRecipDiv
import Idealize.ShloMosaic.Lib.Pipeline.Value
import Idealize.ShloMosaic.Lib.ValueIdx

noncomputable section
open scoped BigOperators
namespace Cert.KernelIdeal.Rows
open Cert.KernelIdeal Cert.KernelIdeal.Gen Cert.GruCell
open Idealize.ShloMosaic Idealize.ShloMosaic.ValueIdx

/-- Both products contract the left operand's columns with the right operand's rows, nothing batched. -/
theorem plainI : Cert.PlainDot.IsPlain dot_S4000x472_S472x300_S4000x300_1_0_0_1_n_n := ⟨rfl, rfl, rfl, rfl, rfl, rfl⟩
theorem plainH : Cert.PlainDot.IsPlain dot_S4000x100_S100x300_S4000x300_1_0_0_1_n_n := ⟨rfl, rfl, rfl, rfl, rfl, rfl⟩

/-- A bias row broadcast down the rows, read at (p, j): the row's entry j. -/
theorem bias_at (b : FVec Ideal S1x300 .f32) (h : S1x300.Broadcasts S4000x300) (p : Fin 4000) (j : Fin 300) :
    broadcastTo S4000x300 b h (ix2 p j) = b (ix2 (0 : Fin 1) j) :=
  broadcastTo_apply b h (ix2 p j) (ix2 (0 : Fin 1) j) (fun a => match a with
    | ⟨0, _⟩ => by show (0 : Nat) = if (1 : Nat) = 1 then 0 else _; rw [if_pos rfl]
    | ⟨1, _⟩ => by show j.val = if (300 : Nat) = 1 then 0 else j.val; rw [if_neg (by decide)])

/-- The three bands of a 300-column block, read at (p, q). -/
theorem band_lo {α : Type} (v : S4000x300.Idx → α) (h : S4000x300.Slices ![0, 0] S4000x100) (p : Fin 4000) (q : Fin 100) :
    extractStridedSlice S4000x100 ![0, 0] v h (ix2 p q) = v (ix2 p (lo q)) :=
  extractStridedSlice_apply ![0, 0] v h (ix2 p q) (ix2 p (lo q)) (fun a => match a with
    | ⟨0, _⟩ => by show p.val = 0 + p.val; omega
    | ⟨1, _⟩ => by show q.val = 0 + q.val; omega)
theorem band_mid {α : Type} (v : S4000x300.Idx → α) (h : S4000x300.Slices ![0, 100] S4000x100) (p : Fin 4000) (q : Fin 100) :
    extractStridedSlice S4000x100 ![0, 100] v h (ix2 p q) = v (ix2 p (mid q)) :=
  extractStridedSlice_apply ![0, 100] v h (ix2 p q) (ix2 p (mid q)) (fun a => match a with
    | ⟨0, _⟩ => by show p.val = 0 + p.val; omega
    | ⟨1, _⟩ => by show 100 + q.val = 100 + q.val; rfl)
theorem band_hi {α : Type} (v : S4000x300.Idx → α) (h : S4000x300.Slices ![0, 200] S4000x100) (p : Fin 4000) (q : Fin 100) :
    extractStridedSlice S4000x100 ![0, 200] v h (ix2 p q) = v (ix2 p (hi q)) :=
  extractStridedSlice_apply ![0, 200] v h (ix2 p q) (ix2 p (hi q)) (fun a => match a with
    | ⟨0, _⟩ => by show p.val = 0 + p.val; omega
    | ⟨1, _⟩ => by show 200 + q.val = 200 + q.val; rfl)

/-- The input-side pre-activations of the block at (p, j). -/
theorem gi_at (x0 : FVec Ideal S4000x472 .f32) (x2 : FVec Ideal S472x300 .f32) (x4 : FVec Ideal S1x300 .f32)
    (hb : S1x300.Broadcasts S4000x300) (p : Fin 4000) (j : Fin 300) :
    matmul dot_S4000x472_S472x300_S4000x300_1_0_0_1_n_n none x0 x2 (constant S4000x300 .f32 0x00000000#32) (ix2 p j)
      + broadcastTo S4000x300 x4 hb (ix2 p j) = gateI (fun k => x0 (ix2 p k)) x2 (fun j => x4 (ix2 (0 : Fin 1) j)) j := by
  rw [bias_at]
  refine congrArg (· + x4 (ix2 (0 : Fin 1) j)) ?_
  exact Cert.PlainDot.matmul_zero_plain _ plainI none x0 x2 (ix2 p j)

/-- The hidden-side pre-activations of the block at (p, j). -/
theorem gh_at (x1 : FVec Ideal S4000x100 .f32) (x3 : FVec Ideal S100x300 .f32) (x5 : FVec Ideal S1x300 .f32)
    (hb : S1x300.Broadcasts S4000x300) (p : Fin 4000) (j : Fin 300) :
    matmul dot_S4000x100_S100x300_S4000x300_1_0_0_1_n_n none x1 x3 (constant S4000x300 .f32 0x00000000#32) (ix2 p j)
      + broadcastTo S4000x300 x5 hb (ix2 p j) = gateH (fun k => x1 (ix2 p k)) x3 (fun j => x5 (ix2 (0 : Fin 1) j)) j := by
  rw [bias_at]
  refine congrArg (· + x5 (ix2 (0 : Fin 1) j)) ?_
  exact Cert.PlainDot.matmul_zero_plain _ plainH none x1 x3 (ix2 p j)

/-- The logistic and the hyperbolic tangent of a block act entry by entry. -/
theorem logistic_at (v : FVec Ideal S4000x100 .f32) (i : S4000x100.Idx) : logistic v i = Ideal.logistic (v i) := rfl
theorem tanh_at (v : FVec Ideal S4000x100 .f32) (i : S4000x100.Idx) : tanh v i = Ideal.tanh (v i) := rfl

/-- Entry (p, q) of what the body stores is the gated update of row p of the two blocks. -/
theorem pay_at (x0 : FVec Ideal S4000x472 .f32) (x1 : FVec Ideal S4000x100 .f32) (x2 : FVec Ideal S472x300 .f32)
    (x3 : FVec Ideal S100x300 .f32) (x4 x5 : FVec Ideal S1x300 .f32) (p : Fin 4000) (q : Fin 100) :
    k0_pay1 (F := Ideal) x0 x1 x2 x4 x3 x5 (ix2 p q)
      = cell (fun k => x0 (ix2 p k)) (fun k => x1 (ix2 p k)) x2 x3 (fun j => x4 (ix2 (0 : Fin 1) j))
          (fun j => x5 (ix2 (0 : Fin 1) j)) q := by
  unfold k0_pay1
  simp only [shapeCast_self]
  simp only [addf_apply, mulf_apply, subf_apply, broadcast_apply, logistic_at, tanh_at, band_lo, band_mid, band_hi, gi_at, gh_at,
    Ideal.ofBits_def, Cert.RecipDiv.one_f32]
  rfl

end Cert.KernelIdeal.Rows

end
-- ==== Proof.KernelArray.lean ====
/-
  The kernel's result array, whole.

  Point `t` of the grid writes back rows `4000·t … 4000·t + 3999` of the new memory. What it writes is the gated update
  of row `p` of the two row blocks it was handed, and those are rows `4000·t + p` of the aggregated messages and of the
  memory as the region finds them, while the weights and the bias rows are handed whole at every point. So block `t` of
  the result is block `t` of ONE function of the arrays at the region's entry (`GruCell.newMemory`); the 50 blocks tile
  the 200000 rows (row `r` lies in the block of point `r / 4000`); hence the result array is that function.
-/
import proofs.«154772_j39754217292129_1_alg».proof.Proof.RegionIdeal
import proofs.«154772_j39754217292129_1_alg».proof.Proof.KernelRows
import Idealize.ShloMosaic.Lib.Pipeline.Value

set_option maxRecDepth 16384

noncomputable section

namespace Cert.KernelIdeal.Whole

open Cert.KernelIdeal Cert.KernelIdeal.Gen Cert.KernelIdeal.Region Cert.KernelIdeal.Rows Cert.GruCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The windows' block indices at point `t`, decided over the 50 points: the two row blocks and the output move with
    the point along the rows; the weights and the biases stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Equal rows, weights and biases give equal updates. -/
theorem cell_congr {a a' : Fin 472 → EReal} {b b' : Fin 100 → EReal} {w w' : (⟨2, ![472, 300]⟩ : Shape).Idx → EReal}
    {u u' : (⟨2, ![100, 300]⟩ : Shape).Idx → EReal} {s s' v v' : Fin 300 → EReal} (q : Fin 100)
    (ha : a = a') (hb : b = b') (hw : w = w') (hu : u = u') (hs : s = s') (hv : v = v') :
    cell a b w u s v q = cell a' b' w' u' s' v' q := by subst ha hb hw hu hs hv; rfl

/-- A window's block at a point is its array, as the region finds it, read through the block's rectangle. -/
theorem iblk_apply0 (c : Dev nD) (t : Fin cfg0.N) (y : ((cfg0.win 0).xblock (cfg0.grid.coords t)).Idx) :
    iblk m c 0 t y = V m c main_v94 (((cfg0.win 0).blk t).view.emb y) := rfl
theorem iblk_apply1 (c : Dev nD) (t : Fin cfg0.N) (y : ((cfg0.win 1).xblock (cfg0.grid.coords t)).Idx) :
    iblk m c 1 t y = V m c main_arg4 (((cfg0.win 1).blk t).view.emb y) := rfl
theorem iblk_apply2 (c : Dev nD) (t : Fin cfg0.N) (y : ((cfg0.win 2).xblock (cfg0.grid.coords t)).Idx) :
    iblk m c 2 t y = V m c main_v102 (((cfg0.win 2).blk t).view.emb y) := rfl
theorem iblk_apply3 (c : Dev nD) (t : Fin cfg0.N) (y : ((cfg0.win 3).xblock (cfg0.grid.coords t)).Idx) :
    iblk m c 3 t y = V m c main_v103 (((cfg0.win 3).blk t).view.emb y) := rfl
theorem iblk_apply4 (c : Dev nD) (t : Fin cfg0.N) (y : ((cfg0.win 4).xblock (cfg0.grid.coords t)).Idx) :
    iblk m c 4 t y = V m c main_v104 (((cfg0.win 4).blk t).view.emb y) := rfl
theorem iblk_apply5 (c : Dev nD) (t : Fin cfg0.N) (y : ((cfg0.win 5).xblock (cfg0.grid.coords t)).Idx) :
    iblk m c 5 t y = V m c main_v105 (((cfg0.win 5).blk t).view.emb y) := rfl

/-- The output window's blocks lie inside the array: what is written back is the whole buffer. -/
theorem cut_out (t : Fin cfg0.N) (X : S4000x100.Idx → EReal) : (cfg0.win 6).cut (grid0.coords t) X = X := rfl

/-- Reading an array through the output block's rectangle. -/
theorem read_out (t : Fin cfg0.N) (G : S200000x100.Idx → EReal) (y : S4000x100.Idx) :
    ((cfg0.win 6).blk t).view.read (Elt Ideal) G y = G (((cfg0.win 6).blk t).view.emb y) := rfl

/-- Row p of the output block at point t is row 4000·t + p of the array. -/
theorem out_row (t : Fin cfg0.N) (p : Fin 4000) (q : Fin 100) (hrow : 4000 * t.val + p.val < 200000) :
    ((cfg0.win 6).blk t).view.emb (ix2 p q) = ix2 (⟨4000 * t.val + p.val, hrow⟩ : Fin 200000) q := by
  obtain ⟨-, -, -, -, -, -, -, -, -, -, -, -, i60, i61⟩ := index_facts t
  funext a; apply Fin.ext
  match a with
  | ⟨0, _⟩ => show win0_6.index t (0 : Fin 2) * 4000 + 1 * p.val = 4000 * t.val + p.val; omega
  | ⟨1, _⟩ => show win0_6.index t (1 : Fin 2) * 100 + 1 * q.val = q.val; omega

/-- Row p of the message block at point t is row 4000·t + p of the aggregated messages. -/
theorem row_msg (c : Dev nD) (t : Fin cfg0.N) (p : Fin 4000) (k : Fin 472) (hrow : 4000 * t.val + p.val < 200000) :
    iblk m c 0 t (ix2 p k) = V m c main_v94 (ix2 (⟨4000 * t.val + p.val, hrow⟩ : Fin 200000) k) := by
  obtain ⟨i00, i01, -, -, -, -, -, -, -, -, -, -, -, -⟩ := index_facts t
  rw [iblk_apply0]
  refine congrArg (V m c main_v94) ?_
  funext a; apply Fin.ext
  match a with
  | ⟨0, _⟩ => show win0_0.index t (0 : Fin 2) * 4000 + 1 * p.val = 4000 * t.val + p.val; omega
  | ⟨1, _⟩ => show win0_0.index t (1 : Fin 2) * 472 + 1 * k.val = k.val; omega

/-- Row p of the memory block at point t is row 4000·t + p of the memory. -/
theorem row_mem (c : Dev nD) (t : Fin cfg0.N) (p : Fin 4000) (k : Fin 100) (hrow : 4000 * t.val + p.val < 200000) :
    iblk m c 1 t (ix2 p k) = V m c main_arg4 (ix2 (⟨4000 * t.val + p.val, hrow⟩ : Fin 200000) k) := by
  obtain ⟨-, -, i10, i11, -, -, -, -, -, -, -, -, -, -⟩ := index_facts t
  rw [iblk_apply1]
  refine congrArg (V m c main_arg4) ?_
  funext a; apply Fin.ext
  match a with
  | ⟨0, _⟩ => show win0_1.index t (0 : Fin 2) * 4000 + 1 * p.val = 4000 * t.val + p.val; omega
  | ⟨1, _⟩ => show win0_1.index t (1 : Fin 2) * 100 + 1 * k.val = k.val; omega

/-- The weights and the bias rows are handed whole at every point. -/
theorem whole_wi (c : Dev nD) (t : Fin cfg0.N) : iblk m c 2 t = V m c main_v102 := by
  obtain ⟨-, -, -, -, i20, i21, -, -, -, -, -, -, -, -⟩ := index_facts t
  funext y
  rw [iblk_apply2]
  refine congrArg (V m c main_v102) ?_
  funext a; apply Fin.ext
  match a with
  | ⟨0, _⟩ => show win0_2.index t (0 : Fin 2) * 472 + 1 * (y 0).val = (y 0).val; omega
  | ⟨1, _⟩ => show win0_2.index t (1 : Fin 2) * 300 + 1 * (y 1).val = (y 1).val; omega
theorem whole_wh (c : Dev nD) (t : Fin cfg0.N) : iblk m c 3 t = V m c main_v103 := by
  obtain ⟨-, -, -, -, -, -, i30, i31, -, -, -, -, -, -⟩ := index_facts t
  funext y
  rw [iblk_apply3]
  refine congrArg (V m c main_v103) ?_
  funext a; apply Fin.ext
  match a with
  | ⟨0, _⟩ => show win0_3.index t (0 : Fin 2) * 100 + 1 * (y 0).val = (y 0).val; omega
  | ⟨1, _⟩ => show win0_3.index t (1 : Fin 2) * 300 + 1 * (y 1).val = (y 1).val; omega
theorem whole_bi (c : Dev nD) (t : Fin cfg0.N) : iblk m c 4 t = V m c main_v104 := by
  obtain ⟨-, -, -, -, -, -, -, -, i40, i41, -, -, -, -⟩ := index_facts t
  funext y
  rw [iblk_apply4]
  refine congrArg (V m c main_v104) ?_
  funext a; apply Fin.ext
  match a with
  | ⟨0, _⟩ => show win0_4.index t (0 : Fin 2) * 1 + 1 * (y 0).val = (y 0).val; omega
  | ⟨1, _⟩ => show win0_4.index t (1 : Fin 2) * 300 + 1 * (y 1).val = (y 1).val; omega
theorem whole_bh (c : Dev nD) (t : Fin cfg0.N) : iblk m c 5 t = V m c main_v105 := by
  obtain ⟨-, -, -, -, -, -, -, -, -, -, i50, i51, -, -⟩ := index_facts t
  funext y
  rw [iblk_apply5]
  refine congrArg (V m c main_v105) ?_
  funext a; apply Fin.ext
  match a with
  | ⟨0, _⟩ => show win0_5.index t (0 : Fin 2) * 1 + 1 * (y 0).val = (y 0).val; omega
  | ⟨1, _⟩ => show win0_5.index t (1 : Fin 2) * 300 + 1 * (y 1).val = (y 1).val; omega

set_option maxHeartbeats 1000000 in
/-- What point `t` writes back is block `t` of the new memory computed from the arrays the region finds. -/
theorem flushed_eq (c : Dev nD) (t : Fin cfg0.N) :
    (dats m 0 c).flushed 6 t = ((cfg0.win 6).blk t).view.read (Elt Ideal)
      (newMemory (V m c main_v94) (V m c main_arg4) (V m c main_v102) (V m c main_v103)
        (fun j => V m c main_v104 (ix2 (0 : Fin 1) j)) (fun j => V m c main_v105 (ix2 (0 : Fin 1) j))) := by
  show (cfg0.win 6).cut (grid0.coords t) ((dats m 0 c).after 6 t) = _
  rw [after_6]
  unfold newRows
  rw [View.canon_unit_zero hz]
  simp only [View.ld_unit_zero (S := S4000x472) hz, View.ld_unit_zero (S := S4000x100) hz, View.ld_unit_zero (S := S472x300) hz,
    View.ld_unit_zero (S := S100x300) hz, View.ld_unit_zero (S := S1x300) hz]
  rw [cut_out]
  funext j
  obtain ⟨p, q, rfl⟩ : ∃ (p : Fin 4000) (q : Fin 100), j = ix2 p q := ⟨j 0, j 1, eq_ix2 j⟩
  have ht : t.val < 50 := by have h := t.isLt; have hN : cfg0.N = 50 := N_0; omega
  have hrow : 4000 * t.val + p.val < 200000 := by omega
  rw [read_out, out_row t p q hrow, newMemory_at]
  refine (pay_at (iblk m c 0 t) (iblk m c 1 t) (iblk m c 2 t) (iblk m c 3 t) (iblk m c 4 t) (iblk m c 5 t) p q).trans ?_
  exact cell_congr q (funext fun k => row_msg m c t p k hrow) (funext fun k => row_mem m c t p k hrow)
    (whole_wi m c t) (whole_wh m c t)
    (congrArg (fun (f : S1x300.Idx → EReal) => fun j : Fin 300 => f (ix2 (0 : Fin 1) j)) (whole_bi m c t))
    (congrArg (fun (f : S1x300.Idx → EReal) => fun j : Fin 300 => f (ix2 (0 : Fin 1) j)) (whole_bh m c t))

/-- An index of the result array is in point `t`'s block iff each coordinate is in the block's range on its axis. -/
theorem mem_blk (t : Fin cfg0.N) (i : S200000x100.Idx) :
    i ∈ ((cfg0.win 6).blk t).view.set ↔ ∀ a : Fin 2, win0_6.index t a * S4000x100.size a ≤ (i a).val
      ∧ (i a).val < win0_6.index t a * S4000x100.size a + S4000x100.size a := by
  show i ∈ ((View.whole main_v106).slice (win0_6.rect t)).set ↔ _
  rw [View.set_slice_whole, Rect.mem_set_unit]
  exact Iff.rfl

/-- Every row is in the block of the point `row / 4000`. -/
theorem covered (i : S200000x100.Idx) :
    ∃ t : Fin cfg0.N, (cfg0.win 6).flush t = true ∧ i ∈ ((cfg0.win 6).blk t).view.set := by
  have hi0 : (i 0).val < 200000 := (i 0).isLt
  have hi1 : (i 1).val < 100 := (i 1).isLt
  have hN : cfg0.N = 50 := N_0
  have hlt : (i 0).val / 4000 < cfg0.N := by rw [hN]; omega
  obtain ⟨-, -, -, -, -, -, -, -, -, -, -, -, i60, i61⟩ := index_facts ⟨(i 0).val / 4000, hlt⟩
  refine ⟨⟨(i 0).val / 4000, hlt⟩, flush0_6 _, ?_⟩
  rw [mem_blk]
  intro a
  match a with
  | ⟨0, _⟩ =>
    show win0_6.index ⟨(i 0).val / 4000, hlt⟩ (0 : Fin 2) * 4000 ≤ (i 0).val
      ∧ (i 0).val < win0_6.index ⟨(i 0).val / 4000, hlt⟩ (0 : Fin 2) * 4000 + 4000
    rw [i60]; show (i 0).val / 4000 * 4000 ≤ (i 0).val ∧ (i 0).val < (i 0).val / 4000 * 4000 + 4000; omega
  | ⟨1, _⟩ =>
    show win0_6.index ⟨(i 0).val / 4000, hlt⟩ (1 : Fin 2) * 100 ≤ (i 1).val
      ∧ (i 1).val < win0_6.index ⟨(i 0).val / 4000, hlt⟩ (1 : Fin 2) * 100 + 100
    rw [i61]; omega

/-- The result array after the run. -/
theorem final (c : Dev nD) : (dats m 0 c).arrAt 6 cfg0.N
    = newMemory (V m c main_v94) (V m c main_arg4) (V m c main_v102) (V m c main_v103)
        (fun j => V m c main_v104 (ix2 (0 : Fin 1) j)) (fun j => V m c main_v105 (ix2 (0 : Fin 1) j)) :=
  (dats m 0 c).arrAt_eq_of_cover 6 _ (fun t _ => flushed_eq m c t) covered

/-- The kernel's run, read: the new memory is `newMemory` of the arrays the region finds, and the new update times are
    what the host operations before the region left (no window stages that buffer). -/
theorem run : θ_run defs (onTc (τ := τ) (main (F := Ideal))) ⟨m, fun _ => 0, ρ⟩ fun r => ∀ c : Dev nD,
      r.2.mem ((c.tc : Thread nD τ).loc main_v106)
        = newMemory (V m c main_v94) (V m c main_arg4) (V m c main_v102) (V m c main_v103)
        (fun j => V m c main_v104 (ix2 (0 : Fin 1) j)) (fun j => V m c main_v105 (ix2 (0 : Fin 1) j))
      ∧ r.2.mem ((c.tc : Thread nD τ).loc main_v101) = V m c main_v101 :=
  (θ_run defs _ _).mono (fun r h c => ⟨((h c).1 6).trans (final m c),
      (h c).2 main_v101 (Pipeline.mem_restRefs_of main_v101 (by decide) (by decide))⟩) (Region.run m ρ)

/-- The same run with the twelve argument arrays, which end as launched. -/
theorem run_all : θ_run defs (onTc (τ := τ) (main (F := Ideal))) ⟨m, fun _ => 0, ρ⟩ fun r => ∀ c : Dev nD,
      r.2.mem ((c.tc : Thread nD τ).loc main_v106)
        = newMemory (V m c main_v94) (V m c main_arg4) (V m c main_v102) (V m c main_v103)
        (fun j => V m c main_v104 (ix2 (0 : Fin 1) j)) (fun j => V m c main_v105 (ix2 (0 : Fin 1) j))
      ∧ r.2.mem ((c.tc : Thread nD τ).loc main_v101) = V m c main_v101
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 6).trans (final m c),
      (h c).2 main_v101 (Pipeline.mem_restRefs_of main_v101 (by decide) (by decide)),
      ((h c).2 main_arg0 (Pipeline.mem_restRefs_of main_arg0 (by decide) (by decide))).trans (V_arg0 m c),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c),
      ((h c).1 1).trans (((dats m 0 c).arrAt_in 1 rfl _).trans ((A_eq m c 1).trans (V_arg4 m c))),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c)⟩) (Region.run m ρ)

end Cert.KernelIdeal.Whole

end
-- ==== Proof.HostTail.lean ====
/-
  The reference's last operations, as one function of what they read.

  After it has aggregated each node's latest message, the reference computes the new memory from six arrays: the
  aggregated messages `A` (200000 × 472), the memory `M` (200000 × 100), the input weights `w8` (300 × 472), the hidden
  weights `w9` (300 × 100) and the two bias vectors `b10`, `b11` (300 each). It transposes the weights, takes the two
  products `A · w8ᵀ` and `M · w9ᵀ` over the whole arrays, adds the bias vectors broadcast down the rows, cuts each
  300-column result into three bands of 100 columns, spells the logistic out as 1 / (1 + exp (−x)), and combines the bands
  with the gates. Written here in the program's own operations (`hostTail`), this is `GruCell.newMemory`: read at (n, h) it
  is node n's gated update — the two products are plain sums over the shared axis, a band's column h is column h, 100 + h
  or 200 + h, and 1 / (1 + exp (−x)) is the logistic on the extended reals, 1 being what the constant's pattern denotes.
-/
import proofs.«154772_j39754217292129_1_alg».proof.Proof.Gen.ReferenceIdeal
import proofs.«154772_j39754217292129_1_alg».proof.Proof.GruCell
import proofs.«154772_j39754217292129_1_alg».proof.Proof.LibPlainDot
import proofs.«154772_j39754217292129_1_alg».proof.Proof.LibRecipDiv
import Idealize.ShloMosaic.Lib.Pipeline.Value
import Idealize.ShloMosaic.Lib.ValueIdx

noncomputable section
open scoped BigOperators
namespace Cert.ReferenceIdeal.Tail
open Cert.ReferenceIdeal Cert.ReferenceIdeal.Gen Cert.GruCell
open Idealize.ShloMosaic Idealize.ShloMosaic.ValueIdx

/-- The array of ones. -/
def ones : FVec Ideal S200000x100 .f32 :=
  broadcastInDim S200000x100 ![] bcast_S_S200000x100 (constant (F := Ideal) S_ .f32 0x3F800000#32)

/-- The logistic, spelt out. -/
def sigm (x : FVec Ideal S200000x100 .f32) : FVec Ideal S200000x100 .f32 :=
  Host.divf ones (addf ones (Host.exp (Host.negf x)))

/-- The input-side pre-activations of all nodes. -/
def preI (A : FVec Ideal S200000x472 .f32) (w8 : FVec Ideal S300x472 .f32) (b10 : FVec Ideal S300 .f32) : FVec Ideal S200000x300 .f32 :=
  addf (Host.dotGeneral dot_S200000x472_S472x300_S200000x300_1_0_0_1_n_n none A
      (transpose S472x300 [1, 0] w8 transposes_S300x472_S472x300_1_0))
    (broadcastInDim S200000x300 ![0, 1] bcast_S1x300_S200000x300_0_1 (broadcastInDim S1x300 ![1] bcast_S300_S1x300_1 b10))

/-- The hidden-side pre-activations of all nodes. -/
def preH (M : FVec Ideal S200000x100 .f32) (w9 : FVec Ideal S300x100 .f32) (b11 : FVec Ideal S300 .f32) : FVec Ideal S200000x300 .f32 :=
  addf (Host.dotGeneral dot_S200000x100_S100x300_S200000x300_1_0_0_1_n_n none M
      (transpose S100x300 [1, 0] w9 transposes_S300x100_S100x300_1_0))
    (broadcastInDim S200000x300 ![0, 1] bcast_S1x300_S200000x300_0_1 (broadcastInDim S1x300 ![1] bcast_S300_S1x300_1 b11))

/-- The reset, update and candidate bands of a 300-column array. -/
def band0 (v : FVec Ideal S200000x300 .f32) : FVec Ideal S200000x100 .f32 :=
  extractStridedSlice S200000x100 ![0, 0] v slices_S200000x300_S200000x100_0_0
def band1 (v : FVec Ideal S200000x300 .f32) : FVec Ideal S200000x100 .f32 :=
  extractStridedSlice S200000x100 ![0, 100] v slices_S200000x300_S200000x100_0_100
def band2 (v : FVec Ideal S200000x300 .f32) : FVec Ideal S200000x100 .f32 :=
  extractStridedSlice S200000x100 ![0, 200] v slices_S200000x300_S200000x100_0_200

/-- The new memory, in the program's operations. -/
def hostTail (A : FVec Ideal S200000x472 .f32) (M : FVec Ideal S200000x100 .f32) (w8 : FVec Ideal S300x472 .f32)
    (w9 : FVec Ideal S300x100 .f32) (b10 b11 : FVec Ideal S300 .f32) : FVec Ideal S200000x100 .f32 :=
  addf
    (mulf (subf ones (sigm (addf (band1 (preI A w8 b10)) (band1 (preH M w9 b11)))))
      (Host.tanh (addf (band2 (preI A w8 b10))
        (mulf (sigm (addf (band0 (preI A w8 b10)) (band0 (preH M w9 b11)))) (band2 (preH M w9 b11))))))
    (mulf (sigm (addf (band1 (preI A w8 b10)) (band1 (preH M w9 b11)))) M)

theorem plainI : Cert.PlainDot.IsPlain dot_S200000x472_S472x300_S200000x300_1_0_0_1_n_n := ⟨rfl, rfl, rfl, rfl, rfl, rfl⟩
theorem plainH : Cert.PlainDot.IsPlain dot_S200000x100_S100x300_S200000x300_1_0_0_1_n_n := ⟨rfl, rfl, rfl, rfl, rfl, rfl⟩

/-- A bias vector made a row and broadcast down the rows, read at (n, j): the vector's entry j. -/
theorem bias_at (b : FVec Ideal S300 .f32) (n : Fin 200000) (j : Fin 300) :
    broadcastInDim S200000x300 ![0, 1] bcast_S1x300_S200000x300_0_1 (broadcastInDim S1x300 ![1] bcast_S300_S1x300_1 b) (ix2 n j)
      = b (ix1 j) := by
  rw [broadcastInDim_apply _ bcast_S1x300_S200000x300_0_1 _ (ix2 n j) (ix2 (0 : Fin 1) j) (fun a => match a with
      | ⟨0, _⟩ => by show (0 : Nat) = if (1 : Nat) = 1 then 0 else _; rw [if_pos rfl]
      | ⟨1, _⟩ => by show j.val = if (300 : Nat) = 1 then 0 else j.val; rw [if_neg (by decide)]),
    broadcastInDim_apply _ bcast_S300_S1x300_1 b (ix2 (0 : Fin 1) j) (ix1 j) (fun a => match a with
      | ⟨0, _⟩ => by show j.val = if (300 : Nat) = 1 then 0 else j.val; rw [if_neg (by decide)])]

/-- The input-side pre-activation of node n at column j. -/
theorem preI_at (A : FVec Ideal S200000x472 .f32) (w8 : FVec Ideal S300x472 .f32) (b10 : FVec Ideal S300 .f32)
    (n : Fin 200000) (j : Fin 300) :
    preI A w8 b10 (ix2 n j)
      = gateI (fun k => A (ix2 n k)) (transpose S472x300 [1, 0] w8 transposes_S300x472_S472x300_1_0) (fun j => b10 (ix1 j)) j := by
  unfold preI
  rw [addf_apply, bias_at]
  refine congrArg (· + b10 (ix1 j)) ?_
  exact Cert.PlainDot.dotGeneral_plain _ plainI none _ A _ (ix2 n j)

/-- The hidden-side pre-activation of node n at column j. -/
theorem preH_at (M : FVec Ideal S200000x100 .f32) (w9 : FVec Ideal S300x100 .f32) (b11 : FVec Ideal S300 .f32)
    (n : Fin 200000) (j : Fin 300) :
    preH M w9 b11 (ix2 n j)
      = gateH (fun k => M (ix2 n k)) (transpose S100x300 [1, 0] w9 transposes_S300x100_S100x300_1_0) (fun j => b11 (ix1 j)) j := by
  unfold preH
  rw [addf_apply, bias_at]
  refine congrArg (· + b11 (ix1 j)) ?_
  exact Cert.PlainDot.dotGeneral_plain _ plainH none _ M _ (ix2 n j)

/-- The three bands read at (n, h). -/
theorem band0_at (v : FVec Ideal S200000x300 .f32) (n : Fin 200000) (h : Fin 100) : band0 v (ix2 n h) = v (ix2 n (lo h)) :=
  extractStridedSlice_apply ![0, 0] v slices_S200000x300_S200000x100_0_0 (ix2 n h) (ix2 n (lo h)) (fun a => match a with
    | ⟨0, _⟩ => by show n.val = 0 + n.val; omega
    | ⟨1, _⟩ => by show h.val = 0 + h.val; omega)
theorem band1_at (v : FVec Ideal S200000x300 .f32) (n : Fin 200000) (h : Fin 100) : band1 v (ix2 n h) = v (ix2 n (mid h)) :=
  extractStridedSlice_apply ![0, 100] v slices_S200000x300_S200000x100_0_100 (ix2 n h) (ix2 n (mid h)) (fun a => match a with
    | ⟨0, _⟩ => by show n.val = 0 + n.val; omega
    | ⟨1, _⟩ => by show 100 + h.val = 100 + h.val; rfl)
theorem band2_at (v : FVec Ideal S200000x300 .f32) (n : Fin 200000) (h : Fin 100) : band2 v (ix2 n h) = v (ix2 n (hi h)) :=
  extractStridedSlice_apply ![0, 200] v slices_S200000x300_S200000x100_0_200 (ix2 n h) (ix2 n (hi h)) (fun a => match a with
    | ⟨0, _⟩ => by show n.val = 0 + n.val; omega
    | ⟨1, _⟩ => by show 200 + h.val = 200 + h.val; rfl)

/-- The spelt-out logistic is the logistic, entry by entry. -/
theorem sigm_at (x : FVec Ideal S200000x100 .f32) (i : S200000x100.Idx) : sigm x i = Ideal.logistic (x i) := by
  show Ideal.div (Ideal.ofBits .f32 0x3F800000#32) (Ideal.ofBits .f32 0x3F800000#32 + Ideal.exp (-(x i))) = Ideal.logistic (x i)
  rw [Cert.RecipDiv.one_f32]
  rfl

theorem ones_at (i : S200000x100.Idx) : ones i = 1 := by
  show Ideal.ofBits .f32 0x3F800000#32 = 1
  exact Cert.RecipDiv.one_f32

theorem tanh_at (v : FVec Ideal S200000x100 .f32) (i : S200000x100.Idx) : Host.tanh v i = Ideal.tanh (v i) := rfl

/-- The reference's last operations compute every node's gated update. -/
theorem hostTail_eq (A : FVec Ideal S200000x472 .f32) (M : FVec Ideal S200000x100 .f32) (w8 : FVec Ideal S300x472 .f32)
    (w9 : FVec Ideal S300x100 .f32) (b10 b11 : FVec Ideal S300 .f32) :
    hostTail A M w8 w9 b10 b11
      = newMemory A M (transpose S472x300 [1, 0] w8 transposes_S300x472_S472x300_1_0)
          (transpose S100x300 [1, 0] w9 transposes_S300x100_S100x300_1_0) (fun j => b10 (ix1 j)) (fun j => b11 (ix1 j)) := by
  funext i
  obtain ⟨n, h, rfl⟩ : ∃ (n : Fin 200000) (h : Fin 100), i = ix2 n h := ⟨i 0, i 1, eq_ix2 i⟩
  rw [newMemory_at]
  unfold hostTail
  simp only [addf_apply, mulf_apply, subf_apply, sigm_at, tanh_at, ones_at, band0_at, band1_at, band2_at, preI_at, preH_at]
  rfl

end Cert.ReferenceIdeal.Tail

end
-- ==== Proof.LibConcatenateSimp.lean ====
/-
  Lemmas that let `simp` evaluate a fold of host operations through a `concatenate`.

  The contents of a buffer after a list of host operations is a fold; the library's result lemmas rewrite it one
  operation at a time. A `concatenate` holds its operands as the second components of dependent pairs, where `simp`
  does not rewrite on its own, and a `concatenate` of four operands printed over a literal family `![a, b, c, d]` looks
  its operands up at `![a, b, c, d] k`. With the two congruence lemmas below (tagged `congr` where they are used) and the
  four evaluations of a literal 4-vector added to the simp set, the fold is evaluated inside the operands as well.
-/
import Idealize.ShloMosaic.Lib.Pipeline.Value

namespace Cert.LibConcatenateSimp

open Idealize.ShloMosaic

/-- A two-operand `concatenate` of equal operands is the same array. -/
theorem concatenate2_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by subst e₁ e₂; rfl

/-- A four-operand `concatenate` of equal operands is the same array. -/
theorem concatenate4_congr {α : Type} {t s₁ s₂ s₃ s₄ : Shape} (a : Fin t.rank) {x₁ x₁' : s₁.Idx → α} {x₂ x₂' : s₂.Idx → α}
    {x₃ x₃' : s₃.Idx → α} {x₄ x₄' : s₄.Idx → α}
    (h : Shape.Concatenates [s₁, s₂, s₃, s₄] t a) (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h = concatenate t a [⟨s₁, x₁'⟩, ⟨s₂, x₂'⟩, ⟨s₃, x₃'⟩, ⟨s₄, x₄'⟩] h := by
  subst e₁ e₂ e₃ e₄; rfl

theorem vec4_at0 {α : Type} (a b c d : α) : (![a, b, c, d] : Fin 4 → α) 0 = a := rfl
theorem vec4_at1 {α : Type} (a b c d : α) : (![a, b, c, d] : Fin 4 → α) 1 = b := rfl
theorem vec4_at2 {α : Type} (a b c d : α) : (![a, b, c, d] : Fin 4 → α) 2 = c := rfl
theorem vec4_at3 {α : Type} (a b c d : α) : (![a, b, c, d] : Fin 4 → α) 3 = d := rfl

end Cert.LibConcatenateSimp
-- ==== Proof.LibFoldEval.lean ====
/-
  Evaluating what a buffer holds after a line of host operations.

  The contents of a buffer after a list of operations is a fold of the operations' results over the contents before. One
  pass of rewriting evaluates it: an operation's result at the buffer it writes is its function of the operands' contents,
  at any other buffer the contents before. The pass also rewrites inside the operands of a `concatenate` (two congruence
  lemmas, to be tagged `local congr` where the tactic is used, and the entries of a literal family of four), and it drops
  the transport of an inlined function's values along the equation "the buffer's type is the value's type", which is the
  identity.
-/
import Idealize.ShloMosaic.Lib.StableHlo.Run
import proofs.«154772_j39754217292129_1_alg».proof.Proof.LibConcatenateSimp

namespace Cert.LibFoldEval

open Idealize.ShloMosaic Idealize.ShloMosaic.StableHlo

/-- The fold of the operations' results, evaluated. -/
macro "fold_eval" : tactic =>
  `(tactic| simp (disch := decide) only [after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.LibConcatenateSimp.vec4_at0, Cert.LibConcatenateSimp.vec4_at1, Cert.LibConcatenateSimp.vec4_at2,
      Cert.LibConcatenateSimp.vec4_at3, cast_eq])

end Cert.LibFoldEval
-- ==== Proof.KernelOps.lean ====
/-
  The kernel program's host operations before its region, as one list: the seven stretches one after the other. What a
  buffer holds when the region is entered is the fold of these operations over the launch contents.
-/
import proofs.«154772_j39754217292129_1_alg».proof.Proof.Gen.KernelIdeal.Launch
import Idealize.ShloMosaic.PureOps.Ideal

noncomputable section

namespace Cert.Joined

open Idealize.ShloMosaic Idealize.SL.Sem

/-- The kernel program's host operations before its region, stretch after stretch. -/
abbrev kernelOps : List (HloOp Cert.KernelIdeal.τ Cert.KernelIdeal.sig (Elt Ideal)) := List.flatten [Cert.KernelIdeal.Gen.hostOps0 (F := Ideal), Cert.KernelIdeal.Gen.hostOps0_1 (F := Ideal), Cert.KernelIdeal.Gen.hostOps0_2 (F := Ideal), Cert.KernelIdeal.Gen.hostOps0_3 (F := Ideal), Cert.KernelIdeal.Gen.hostOps0_4 (F := Ideal), Cert.KernelIdeal.Gen.hostOps0_5 (F := Ideal), Cert.KernelIdeal.Gen.hostOps0_6 (F := Ideal)]

end Cert.Joined

end
-- ==== Proof.JoinTimes.lean ====
/-
  The new update times are the same array in the two programs.

  Both programs scatter the event times, by signed maximum, into the last update times at the nodes of the events'
  sources and destinations (a negative node number counted from the end). Evaluated, the two folds of host operations are
  one term of the argument arrays.
-/
import proofs.«154772_j39754217292129_1_alg».proof.Proof.RegionIdeal
import proofs.«154772_j39754217292129_1_alg».proof.Proof.RefOps
import proofs.«154772_j39754217292129_1_alg».proof.Proof.LibFoldEval
import proofs.«154772_j39754217292129_1_alg».proof.Proof.KernelOps
import Idealize.ShloMosaic.Lib.StableHlo.Run
import Idealize.ShloMosaic.Lib.Pipeline.Value
import Idealize.ShloMosaic.Lib.ValueIdx

set_option maxRecDepth 16384

noncomputable section

namespace Cert.Joined

open Idealize.ShloMosaic Idealize.ShloMosaic.TcCoe Idealize.ShloMosaic.ValueIdx Idealize.SL.Sem Idealize.ShloMosaic.StableHlo
open Cert.LibFoldEval

attribute [local congr] Cert.LibConcatenateSimp.concatenate2_congr Cert.LibConcatenateSimp.concatenate4_congr

set_option maxHeartbeats 40000000 in
/-- From contents that agree on the arguments, the kernel program's new update times are the reference's. -/
theorem times_eq (VK : Valuation Cert.KernelIdeal.τ Cert.KernelIdeal.sig (Elt Ideal)) (VR : Valuation Cert.ReferenceIdeal.τ Cert.ReferenceIdeal.sig (Elt Ideal))
    (a0 : (⟨Cert.KernelIdeal.S100000, .i32⟩ : BufTy).Contents (Elt Ideal)) (a1 : (⟨Cert.KernelIdeal.S100000, .i32⟩ : BufTy).Contents (Elt Ideal)) (a2 : (⟨Cert.KernelIdeal.S100000, .i32⟩ : BufTy).Contents (Elt Ideal)) (a5 : (⟨Cert.KernelIdeal.S200000, .i32⟩ : BufTy).Contents (Elt Ideal))
    (hK0 : VK (Proc.devRef .tc Cert.KernelIdeal.main_arg0) = a0) (hK1 : VK (Proc.devRef .tc Cert.KernelIdeal.main_arg1) = a1) (hK2 : VK (Proc.devRef .tc Cert.KernelIdeal.main_arg2) = a2) (hK5 : VK (Proc.devRef .tc Cert.KernelIdeal.main_arg5) = a5)
    (hR0 : VR (Proc.devRef .tc Cert.ReferenceIdeal.main_arg0) = a0) (hR1 : VR (Proc.devRef .tc Cert.ReferenceIdeal.main_arg1) = a1) (hR2 : VR (Proc.devRef .tc Cert.ReferenceIdeal.main_arg2) = a2) (hR5 : VR (Proc.devRef .tc Cert.ReferenceIdeal.main_arg5) = a5) :
    after kernelOps VK (Proc.devRef .tc Cert.KernelIdeal.main_v101)
      = after (Cert.ReferenceIdeal.OpsP.ops (F := Ideal)) VR (Proc.devRef .tc Cert.ReferenceIdeal.main_v153) := by
  simp only [kernelOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons, List.flatten_nil, List.append_nil, List.cons_append, List.nil_append]
  fold_eval
  rw [hK0, hK1, hK2, hK5, hR0, hR1, hR2, hR5]
  rfl

end Cert.Joined

end
-- ==== Proof.JoinTail.lean ====
/-
  The reference's new memory is its last operations applied to its own aggregated messages.

  Evaluated, the fold of the reference's 193 host operations at the new memory is the fold at the aggregated messages with
  the last operations — two products, bias rows, three bands, the gates — applied on top: `Tail.hostTail`, written in the
  program's operations.
-/
import proofs.«154772_j39754217292129_1_alg».proof.Proof.RefOps
import proofs.«154772_j39754217292129_1_alg».proof.Proof.HostTail
import proofs.«154772_j39754217292129_1_alg».proof.Proof.LibFoldEval
import Idealize.ShloMosaic.Lib.StableHlo.Run
import Idealize.ShloMosaic.Lib.Pipeline.Value
import Idealize.ShloMosaic.Lib.ValueIdx

set_option maxRecDepth 16384

noncomputable section

namespace Cert.Joined

open Idealize.ShloMosaic Idealize.ShloMosaic.TcCoe Idealize.ShloMosaic.ValueIdx Idealize.SL.Sem Idealize.ShloMosaic.StableHlo
open Cert.LibFoldEval

attribute [local congr] Cert.LibConcatenateSimp.concatenate2_congr Cert.LibConcatenateSimp.concatenate4_congr

set_option maxHeartbeats 40000000 in
/-- The reference's new memory from the contents of its aggregated messages and of its arguments. -/
theorem tail_eq (VR : Valuation Cert.ReferenceIdeal.τ Cert.ReferenceIdeal.sig (Elt Ideal)) :
    after (Cert.ReferenceIdeal.OpsP.ops (F := Ideal)) VR (Proc.devRef .tc Cert.ReferenceIdeal.main_v146)
      = Cert.ReferenceIdeal.Tail.hostTail (after (Cert.ReferenceIdeal.OpsP.ops (F := Ideal)) VR (Proc.devRef .tc Cert.ReferenceIdeal.main_v108))
          (VR (Proc.devRef .tc Cert.ReferenceIdeal.main_arg4)) (VR (Proc.devRef .tc Cert.ReferenceIdeal.main_arg8)) (VR (Proc.devRef .tc Cert.ReferenceIdeal.main_arg9))
          (VR (Proc.devRef .tc Cert.ReferenceIdeal.main_arg10)) (VR (Proc.devRef .tc Cert.ReferenceIdeal.main_arg11)) := by
  fold_eval
  unfold Cert.ReferenceIdeal.Tail.hostTail Cert.ReferenceIdeal.Tail.sigm Cert.ReferenceIdeal.Tail.preI Cert.ReferenceIdeal.Tail.preH Cert.ReferenceIdeal.Tail.band0 Cert.ReferenceIdeal.Tail.band1 Cert.ReferenceIdeal.Tail.band2
    Cert.ReferenceIdeal.Tail.ones
  rfl

end Cert.Joined

end
-- ==== Proof.LibGatherRows.lean ====
/-
  A gather of whole rows.

  The gather here takes an operand of shape [N, D] and one start index per result row (an [E, 1] array of signed words)
  and returns an [E, D] array: result element (e, q) is operand element (r, q), where r is the start index of row e read
  as a signed integer and clamped into the rows 0 .. N − 1 of the operand. So the row that is read depends only on the
  start indices and on e — not on the column q and not on the operand — and the column passes through unchanged.
  Two arrays gathered at the same start indices are therefore read at the same rows.
-/
import Idealize.ShloMosaic.Lib.ValueIdx
import Idealize.ShloMosaic.PureOps.ShapeOps

noncomputable section
namespace Cert.GatherRows
open Idealize.ShloMosaic Idealize.ShloMosaic.ValueIdx

variable {α : Type} {N E D : Nat}

/-- The dimension numbers of a gather of rows: operand [N, D], start indices [E, 1], result [E, D]. -/
abbrev RowGather (N E D : Nat) : Type :=
  GatherDims (⟨2, ![N, D]⟩ : Shape) (⟨2, ![E, 1]⟩ : Shape) (⟨2, ![E, D]⟩ : Shape)

/-- The result's column axis is the offset axis, the operand's row axis is collapsed and is the one the start index
    names, nothing is batched, the start indices' second axis holds the index vector, and a slice is one whole row. -/
structure IsRow (d : RowGather N E D) : Prop where
  od : d.offsetDims = [1]
  cs : d.collapsedSliceDims = [0]
  ob : d.operandBatchingDims = []
  sb : d.startIndicesBatchingDims = []
  sm : d.startIndexMap = [0]
  iv : d.indexVectorDim = 1
  ss : d.sliceSizes = ![1, D]

/-- The operand row that result row `e` reads: its start index read signed, clamped into `0 .. N − 1`. -/
def row {w : Nat} (hN : 0 < N) (idx : IVec (⟨2, ![E, 1]⟩ : Shape) w) (e : Fin E) : Fin N :=
  ⟨min (idx (ix2 e 0)).toInt.toNat (N - 1), by omega⟩

theorem one_ne_zero2 : (1 : Fin 2) ≠ 0 := by decide
theorem zero_ne_one2 : (0 : Fin 2) ≠ 1 := by decide

/-- A gather of rows read at (e, q): the operand at (row e, q). -/
theorem gather_row (d : RowGather N E D) (hd : IsRow d) (hN : 0 < N) {w : Nat} (x : (⟨2, ![N, D]⟩ : Shape).Idx → α)
    (idx : IVec (⟨2, ![E, 1]⟩ : Shape) w) (e : Fin E) (q : Fin D) :
    Host.gather d x idx (ix2 e q) = x (ix2 (row hN idx e) q) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  unfold Host.gather
  congr 1
  funext a
  refine Fin.ext ?_
  match a with
  | ⟨0, _⟩ =>
    show (⟨[1], [0], [], [], [0], 1, ![1, D], wf⟩ : RowGather N E D).start (ix2 e q) idx 0
        + (⟨[1], [0], [], [], [0], 1, ![1, D], wf⟩ : RowGather N E D).batchCoord (ix2 e q) 0
        + (⟨[1], [0], [], [], [0], 1, ![1, D], wf⟩ : RowGather N E D).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (⟨[1], [0], [], [], [0], 1, ![1, D], wf⟩ : RowGather N E D).siIdx (ix2 e q)
        ⟨List.idxOf (0 : Fin 2) [(0 : Fin 2)], List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (⟨[1], [0], [], [], [0], 1, ![1, D], wf⟩ : RowGather N E D).start (ix2 e q) idx 1
        + (⟨[1], [0], [], [], [0], 1, ![1, D], wf⟩ : RowGather N E D).batchCoord (ix2 e q) 1
        + (⟨[1], [0], [], [], [0], 1, ![1, D], wf⟩ : RowGather N E D).offCoord (ix2 e q) 1 = q.val
    rw [GatherDims.batchCoord_eq_zero _ _ _ List.not_mem_nil]
    unfold GatherDims.start
    rw [dif_neg (fun h => absurd (List.mem_singleton.1 h) one_ne_zero2)]
    unfold GatherDims.offCoord
    rw [dif_pos ((GatherDims.mem_sKept _ _).2
      ⟨fun h => absurd (List.mem_singleton.1 h) one_ne_zero2, List.not_mem_nil⟩)]
    simp only [Nat.zero_add]
    rfl

end Cert.GatherRows
-- ==== Proof.ClipRows.lean ====
/-
  Clipping a row index above before a gather of rows changes nothing.

  A gather of whole rows from an array of 200000 rows reads, for result row `e`, the row whose number is the start
  index of `e` read as a signed integer and clamped into 0 … 199999. Let `a = max(0, w)` (signed) for any word `w`.
  One program takes the start index `a`, the other `b = min(199999, a`); each first adds `n` to its index where the
  index is negative — which never happens, both being at least 0. Since the gather itself clamps at 199999, both read row
  `min(a, 199999)`: the two gathers are the same array, whatever is gathered and whatever `w` holds.
-/
import proofs.«154772_j39754217292129_1_alg».proof.Proof.LibGatherRows
import Idealize.ShloMosaic.Lib.Pipeline.Value
import Idealize.ShloMosaic.Lib.ValueIdx

noncomputable section
namespace Cert.ClipRows
open Idealize.ShloMosaic Idealize.ShloMosaic.ValueIdx

theorem toInt_zero32 : (0#32 : BitVec 32).toInt = 0 := by decide
theorem toInt_top : (199999#32 : BitVec 32).toInt = 199999 := by decide

/-- The signed maximum with zero is not negative. -/
theorem maxsi_zero_nonneg (w : BitVec 32) : 0 ≤ (IntOp.maxsi 0#32 w).toInt := by
  unfold IntOp.maxsi
  by_cases h : w.slt 0#32 = true
  · rw [if_pos h, toInt_zero32]
  · rw [if_neg h]
    have : ¬ (w.toInt < (0#32 : BitVec 32).toInt) := by
      intro hlt; exact h (by simp only [BitVec.slt]; exact decide_eq_true hlt)
    rw [toInt_zero32] at this; omega

/-- The signed minimum with 199999, read as an integer. -/
theorem minsi_top_toInt (a : BitVec 32) : (IntOp.minsi 199999#32 a).toInt = min 199999 a.toInt := by
  unfold IntOp.minsi
  by_cases h : (199999#32 : BitVec 32).slt a = true
  · rw [if_pos h, toInt_top]
    have : (199999#32 : BitVec 32).toInt < a.toInt := by
      simp only [BitVec.slt] at h; exact of_decide_eq_true h
    rw [toInt_top] at this; omega
  · rw [if_neg h]
    have : ¬ ((199999#32 : BitVec 32).toInt < a.toInt) := by
      intro hlt; exact h (by simp only [BitVec.slt]; exact decide_eq_true hlt)
    rw [toInt_top] at this; omega

/-- "Add `y` where negative" leaves a word that is not negative as it is. -/
theorem wrap_nonneg (x y : BitVec 32) (h : 0 ≤ x.toInt) :
    Scalar.select (IntOp.cmpi .slt x 0#32) y x = x := by
  have hs : x.slt 0#32 = false := by
    simp only [BitVec.slt, toInt_zero32]; exact decide_eq_false (by omega)
  unfold Scalar.select IntOp.cmpi
  simp only [hs]
  exact if_neg (by decide)

/-- The row read is the same with and without the clip above. -/
theorem clip_row (w n : BitVec 32) :
    min ((Scalar.select (IntOp.cmpi .slt (IntOp.minsi 199999#32 (IntOp.maxsi 0#32 w)) 0#32)
            (IntOp.addi (IntOp.minsi 199999#32 (IntOp.maxsi 0#32 w)) n)
            (IntOp.minsi 199999#32 (IntOp.maxsi 0#32 w))).toInt.toNat) 199999
      = min ((Scalar.select (IntOp.cmpi .slt (IntOp.maxsi 0#32 w) 0#32)
            (IntOp.addi (IntOp.maxsi 0#32 w) n) (IntOp.maxsi 0#32 w)).toInt.toNat) 199999 := by
  have ha := maxsi_zero_nonneg w
  have hb := minsi_top_toInt (IntOp.maxsi 0#32 w)
  rw [wrap_nonneg _ _ ha, wrap_nonneg _ _ (by rw [hb]; omega), hb]
  omega

/-- A column of start indices made from a vector of words, read at row `e`. -/
theorem column_at (x : IVec (⟨1, ![200000]⟩ : Shape) 32)
    (hb : (⟨1, ![200000]⟩ : Shape).BroadcastsInDim (⟨2, ![200000, 1]⟩ : Shape) (![0] : Fin 1 → Fin 2)) (e : Fin 200000) :
    broadcastInDim (⟨2, ![200000, 1]⟩ : Shape) ![0] hb x (ix2 e (0 : Fin 1)) = x (ix1 e) :=
  broadcastInDim_apply _ hb x (ix2 e (0 : Fin 1)) (ix1 e) (fun a => match a with
    | ⟨0, _⟩ => by show e.val = if (200000 : Nat) = 1 then 0 else e.val; rw [if_neg (by decide)])

/-- The two gathers are one array. -/
theorem gather_clip {α : Type} (d : Cert.GatherRows.RowGather 200000 200000 472) (hd : Cert.GatherRows.IsRow d)
    (msg : (⟨2, ![200000, 472]⟩ : Shape).Idx → α) (w lo top z n : IVec (⟨1, ![200000]⟩ : Shape) 32)
    (hb : (⟨1, ![200000]⟩ : Shape).BroadcastsInDim (⟨2, ![200000, 1]⟩ : Shape) (![0] : Fin 1 → Fin 2))
    (hlo : ∀ i, lo i = 0#32) (htop : ∀ i, top i = 199999#32) (hz : ∀ i, z i = 0#32) :
    Host.gather d msg (broadcastInDim (⟨2, ![200000, 1]⟩ : Shape) ![0] hb
        (select (cmpi .slt (minsi top (maxsi lo w)) z) (addi (minsi top (maxsi lo w)) n) (minsi top (maxsi lo w))))
      = Host.gather d msg (broadcastInDim (⟨2, ![200000, 1]⟩ : Shape) ![0] hb
        (select (cmpi .slt (maxsi lo w) z) (addi (maxsi lo w) n) (maxsi lo w))) := by
  funext i
  obtain ⟨e, q, rfl⟩ : ∃ (e : Fin 200000) (q : Fin 472), i = ix2 e q := ⟨i 0, i 1, eq_ix2 i⟩
  rw [Cert.GatherRows.gather_row d hd (by decide) msg _ e q, Cert.GatherRows.gather_row d hd (by decide) msg _ e q]
  refine congrArg (fun r => msg (ix2 r q)) (Fin.ext ?_)
  unfold Cert.GatherRows.row
  dsimp only
  rw [column_at, column_at]
  show min ((Scalar.select (IntOp.cmpi .slt (IntOp.minsi (top (ix1 e)) (IntOp.maxsi (lo (ix1 e)) (w (ix1 e)))) (z (ix1 e)))
            (IntOp.addi (IntOp.minsi (top (ix1 e)) (IntOp.maxsi (lo (ix1 e)) (w (ix1 e)))) (n (ix1 e)))
            (IntOp.minsi (top (ix1 e)) (IntOp.maxsi (lo (ix1 e)) (w (ix1 e))))).toInt.toNat) 199999
      = min ((Scalar.select (IntOp.cmpi .slt (IntOp.maxsi (lo (ix1 e)) (w (ix1 e))) (z (ix1 e)))
            (IntOp.addi (IntOp.maxsi (lo (ix1 e)) (w (ix1 e))) (n (ix1 e))) (IntOp.maxsi (lo (ix1 e)) (w (ix1 e)))).toInt.toNat) 199999
  rw [hlo, htop, hz]
  exact clip_row _ _

end Cert.ClipRows

end
-- ==== Proof.JoinAggr.lean ====
/-
  The aggregated messages are the same array in the two programs.

  Both programs gather the memory rows of each event's source and destination, encode the time since the node's last
  update, lay the two message streams one after the other, find for every node the latest event that names it (a scatter
  of the event times by maximum, then of the event numbers by maximum), and gather that event's message, zero where no
  event names the node. They differ in one place: the kernel's program clips the winning event's number above at 199999
  before the gather, the reference does not — and a gather of rows clamps its row number at 199999 itself
  (`ClipRows.gather_clip`). Evaluated, the two folds are then one term of the argument arrays.
-/
import proofs.«154772_j39754217292129_1_alg».proof.Proof.RegionIdeal
import proofs.«154772_j39754217292129_1_alg».proof.Proof.RefOps
import proofs.«154772_j39754217292129_1_alg».proof.Proof.LibFoldEval
import proofs.«154772_j39754217292129_1_alg».proof.Proof.KernelOps
import proofs.«154772_j39754217292129_1_alg».proof.Proof.ClipRows
import Idealize.ShloMosaic.Lib.StableHlo.Run
import Idealize.ShloMosaic.Lib.Pipeline.Value
import Idealize.ShloMosaic.Lib.ValueIdx

set_option maxRecDepth 16384

noncomputable section

namespace Cert.Joined

open Idealize.ShloMosaic Idealize.ShloMosaic.TcCoe Idealize.ShloMosaic.ValueIdx Idealize.SL.Sem Idealize.ShloMosaic.StableHlo
open Cert.LibFoldEval

attribute [local congr] Cert.LibConcatenateSimp.concatenate2_congr Cert.LibConcatenateSimp.concatenate4_congr

/-- The last gather takes whole rows of the 200000 × 472 messages. -/
theorem isRow_msg : Cert.GatherRows.IsRow Cert.KernelIdeal.gather_S200000x472_S200000x1_S200000x472_1_0_n_n_0_1_1472 :=
  ⟨rfl, rfl, rfl, rfl, rfl, rfl, rfl⟩

set_option maxHeartbeats 40000000 in
/-- From contents that agree on the arguments, the kernel program's aggregated messages are the reference's. -/
theorem aggr_eq (VK : Valuation Cert.KernelIdeal.τ Cert.KernelIdeal.sig (Elt Ideal)) (VR : Valuation Cert.ReferenceIdeal.τ Cert.ReferenceIdeal.sig (Elt Ideal))
    (a0 : (⟨Cert.KernelIdeal.S100000, .i32⟩ : BufTy).Contents (Elt Ideal)) (a1 : (⟨Cert.KernelIdeal.S100000, .i32⟩ : BufTy).Contents (Elt Ideal)) (a2 : (⟨Cert.KernelIdeal.S100000, .i32⟩ : BufTy).Contents (Elt Ideal)) (a3 : (⟨Cert.KernelIdeal.S100000x172, .f32⟩ : BufTy).Contents (Elt Ideal)) (a4 : (⟨Cert.KernelIdeal.S200000x100, .f32⟩ : BufTy).Contents (Elt Ideal)) (a5 : (⟨Cert.KernelIdeal.S200000, .i32⟩ : BufTy).Contents (Elt Ideal)) (a6 : (⟨Cert.KernelIdeal.S100x1, .f32⟩ : BufTy).Contents (Elt Ideal)) (a7 : (⟨Cert.KernelIdeal.S100, .f32⟩ : BufTy).Contents (Elt Ideal))
    (hK0 : VK (Proc.devRef .tc Cert.KernelIdeal.main_arg0) = a0) (hK1 : VK (Proc.devRef .tc Cert.KernelIdeal.main_arg1) = a1) (hK2 : VK (Proc.devRef .tc Cert.KernelIdeal.main_arg2) = a2) (hK3 : VK (Proc.devRef .tc Cert.KernelIdeal.main_arg3) = a3) (hK4 : VK (Proc.devRef .tc Cert.KernelIdeal.main_arg4) = a4) (hK5 : VK (Proc.devRef .tc Cert.KernelIdeal.main_arg5) = a5) (hK6 : VK (Proc.devRef .tc Cert.KernelIdeal.main_arg6) = a6) (hK7 : VK (Proc.devRef .tc Cert.KernelIdeal.main_arg7) = a7)
    (hR0 : VR (Proc.devRef .tc Cert.ReferenceIdeal.main_arg0) = a0) (hR1 : VR (Proc.devRef .tc Cert.ReferenceIdeal.main_arg1) = a1) (hR2 : VR (Proc.devRef .tc Cert.ReferenceIdeal.main_arg2) = a2) (hR3 : VR (Proc.devRef .tc Cert.ReferenceIdeal.main_arg3) = a3) (hR4 : VR (Proc.devRef .tc Cert.ReferenceIdeal.main_arg4) = a4) (hR5 : VR (Proc.devRef .tc Cert.ReferenceIdeal.main_arg5) = a5) (hR6 : VR (Proc.devRef .tc Cert.ReferenceIdeal.main_arg6) = a6) (hR7 : VR (Proc.devRef .tc Cert.ReferenceIdeal.main_arg7) = a7) :
    after kernelOps VK (Proc.devRef .tc Cert.KernelIdeal.main_v94)
      = after (Cert.ReferenceIdeal.OpsP.ops (F := Ideal)) VR (Proc.devRef .tc Cert.ReferenceIdeal.main_v108) := by
  simp only [kernelOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons, List.flatten_nil, List.append_nil, List.cons_append, List.nil_append]
  fold_eval
  rw [hK0, hK1, hK2, hK3, hK4, hK5, hK6, hK7, hR0, hR1, hR2, hR3, hR4, hR5, hR6, hR7]
  rw [Cert.ClipRows.gather_clip Cert.KernelIdeal.gather_S200000x472_S200000x1_S200000x472_1_0_n_n_0_1_1472 isRow_msg _ _ _ _ _ _ _ ?hlo ?htop ?hz]
  · rfl
  · intro i; rfl
  · intro i; rfl
  · intro i; rfl

end Cert.Joined

end
-- ==== Proof.JoinSmall.lean ====
/-
  What the kernel's region finds in its weight and bias windows, and that the reference writes no argument.

  The kernel's program transposes the two weight matrices and reshapes the two bias vectors into rows right before its
  region; the reference's operations each write a value of their own, never an argument array.
-/
import proofs.«154772_j39754217292129_1_alg».proof.Proof.RegionIdeal
import proofs.«154772_j39754217292129_1_alg».proof.Proof.RefOps
import proofs.«154772_j39754217292129_1_alg».proof.Proof.LibFoldEval
import proofs.«154772_j39754217292129_1_alg».proof.Proof.KernelOps
import Idealize.ShloMosaic.Lib.StableHlo.Run
import Idealize.ShloMosaic.Lib.Pipeline.Value
import Idealize.ShloMosaic.Lib.ValueIdx

set_option maxRecDepth 16384

noncomputable section

namespace Cert.Joined

open Idealize.ShloMosaic Idealize.ShloMosaic.TcCoe Idealize.ShloMosaic.ValueIdx Idealize.SL.Sem Idealize.ShloMosaic.StableHlo
open Cert.LibFoldEval

attribute [local congr] Cert.LibConcatenateSimp.concatenate2_congr Cert.LibConcatenateSimp.concatenate4_congr

/-- Entry (0, j) of a 300-vector reshaped into a row is its entry j. -/
theorem row_of_vector (x : (⟨1, ![300]⟩ : Shape).Idx → EReal) (hn : (⟨1, ![300]⟩ : Shape).ShapeCasts (⟨2, ![1, 300]⟩ : Shape)) (j : Fin 300) :
    shapeCast (⟨2, ![1, 300]⟩ : Shape) x hn (ix2 (0 : Fin 1) j) = x (ix1 j) :=
  shapeCast_apply x hn (ix2 (0 : Fin 1) j) (ix1 j) (by
    rw [Shape.rowMajor_val_one, Shape.rowMajor_val_two]; show j.val = 0 * 300 + j.val; omega)

set_option maxHeartbeats 40000000 in
/-- The transposed input weights. -/
theorem wi_eq (VK : Valuation Cert.KernelIdeal.τ Cert.KernelIdeal.sig (Elt Ideal)) :
    after kernelOps VK (Proc.devRef .tc Cert.KernelIdeal.main_v102)
      = transpose Cert.KernelIdeal.S472x300 [1, 0] (VK (Proc.devRef .tc Cert.KernelIdeal.main_arg8)) Cert.KernelIdeal.Gen.transposes_S300x472_S472x300_1_0 := by
  simp only [kernelOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons, List.flatten_nil, List.append_nil, List.cons_append, List.nil_append]
  fold_eval <;> rfl

set_option maxHeartbeats 40000000 in
/-- The transposed hidden weights. -/
theorem wh_eq (VK : Valuation Cert.KernelIdeal.τ Cert.KernelIdeal.sig (Elt Ideal)) :
    after kernelOps VK (Proc.devRef .tc Cert.KernelIdeal.main_v103)
      = transpose Cert.KernelIdeal.S100x300 [1, 0] (VK (Proc.devRef .tc Cert.KernelIdeal.main_arg9)) Cert.KernelIdeal.Gen.transposes_S300x100_S100x300_1_0 := by
  simp only [kernelOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons, List.flatten_nil, List.append_nil, List.cons_append, List.nil_append]
  fold_eval <;> rfl

set_option maxHeartbeats 40000000 in
/-- The input bias row. -/
theorem bi_eq (VK : Valuation Cert.KernelIdeal.τ Cert.KernelIdeal.sig (Elt Ideal)) (j : Fin 300) :
    after kernelOps VK (Proc.devRef .tc Cert.KernelIdeal.main_v104) (ix2 (0 : Fin 1) j) = VK (Proc.devRef .tc Cert.KernelIdeal.main_arg10) (ix1 j) := by
  simp only [kernelOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons, List.flatten_nil, List.append_nil, List.cons_append, List.nil_append]
  fold_eval
  exact row_of_vector _ _ j

set_option maxHeartbeats 40000000 in
/-- The hidden bias row. -/
theorem bh_eq (VK : Valuation Cert.KernelIdeal.τ Cert.KernelIdeal.sig (Elt Ideal)) (j : Fin 300) :
    after kernelOps VK (Proc.devRef .tc Cert.KernelIdeal.main_v105) (ix2 (0 : Fin 1) j) = VK (Proc.devRef .tc Cert.KernelIdeal.main_arg11) (ix1 j) := by
  simp only [kernelOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons, List.flatten_nil, List.append_nil, List.cons_append, List.nil_append]
  fold_eval
  exact row_of_vector _ _ j

/-- No operation of the reference writes an argument array: the written buffers listed, each another buffer. -/
local macro "ref_unwritten " r:term : term => `(StableHlo.after_of_forall_not_mem (b := Proc.devRef .tc $r) _ _ (List.forall_iff_forall_mem.mp (by
    simp only [Cert.ReferenceIdeal.OpsP.ops, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide))))

theorem ref_arg0 (VR : Valuation Cert.ReferenceIdeal.τ Cert.ReferenceIdeal.sig (Elt Ideal)) :
    after (Cert.ReferenceIdeal.OpsP.ops (F := Ideal)) VR (Proc.devRef .tc Cert.ReferenceIdeal.main_arg0) = VR (Proc.devRef .tc Cert.ReferenceIdeal.main_arg0) := ref_unwritten Cert.ReferenceIdeal.main_arg0
theorem ref_arg1 (VR : Valuation Cert.ReferenceIdeal.τ Cert.ReferenceIdeal.sig (Elt Ideal)) :
    after (Cert.ReferenceIdeal.OpsP.ops (F := Ideal)) VR (Proc.devRef .tc Cert.ReferenceIdeal.main_arg1) = VR (Proc.devRef .tc Cert.ReferenceIdeal.main_arg1) := ref_unwritten Cert.ReferenceIdeal.main_arg1
theorem ref_arg2 (VR : Valuation Cert.ReferenceIdeal.τ Cert.ReferenceIdeal.sig (Elt Ideal)) :
    after (Cert.ReferenceIdeal.OpsP.ops (F := Ideal)) VR (Proc.devRef .tc Cert.ReferenceIdeal.main_arg2) = VR (Proc.devRef .tc Cert.ReferenceIdeal.main_arg2) := ref_unwritten Cert.ReferenceIdeal.main_arg2
theorem ref_arg3 (VR : Valuation Cert.ReferenceIdeal.τ Cert.ReferenceIdeal.sig (Elt Ideal)) :
    after (Cert.ReferenceIdeal.OpsP.ops (F := Ideal)) VR (Proc.devRef .tc Cert.ReferenceIdeal.main_arg3) = VR (Proc.devRef .tc Cert.ReferenceIdeal.main_arg3) := ref_unwritten Cert.ReferenceIdeal.main_arg3
theorem ref_arg4 (VR : Valuation Cert.ReferenceIdeal.τ Cert.ReferenceIdeal.sig (Elt Ideal)) :
    after (Cert.ReferenceIdeal.OpsP.ops (F := Ideal)) VR (Proc.devRef .tc Cert.ReferenceIdeal.main_arg4) = VR (Proc.devRef .tc Cert.ReferenceIdeal.main_arg4) := ref_unwritten Cert.ReferenceIdeal.main_arg4
theorem ref_arg5 (VR : Valuation Cert.ReferenceIdeal.τ Cert.ReferenceIdeal.sig (Elt Ideal)) :
    after (Cert.ReferenceIdeal.OpsP.ops (F := Ideal)) VR (Proc.devRef .tc Cert.ReferenceIdeal.main_arg5) = VR (Proc.devRef .tc Cert.ReferenceIdeal.main_arg5) := ref_unwritten Cert.ReferenceIdeal.main_arg5
theorem ref_arg6 (VR : Valuation Cert.ReferenceIdeal.τ Cert.ReferenceIdeal.sig (Elt Ideal)) :
    after (Cert.ReferenceIdeal.OpsP.ops (F := Ideal)) VR (Proc.devRef .tc Cert.ReferenceIdeal.main_arg6) = VR (Proc.devRef .tc Cert.ReferenceIdeal.main_arg6) := ref_unwritten Cert.ReferenceIdeal.main_arg6
theorem ref_arg7 (VR : Valuation Cert.ReferenceIdeal.τ Cert.ReferenceIdeal.sig (Elt Ideal)) :
    after (Cert.ReferenceIdeal.OpsP.ops (F := Ideal)) VR (Proc.devRef .tc Cert.ReferenceIdeal.main_arg7) = VR (Proc.devRef .tc Cert.ReferenceIdeal.main_arg7) := ref_unwritten Cert.ReferenceIdeal.main_arg7
theorem ref_arg8 (VR : Valuation Cert.ReferenceIdeal.τ Cert.ReferenceIdeal.sig (Elt Ideal)) :
    after (Cert.ReferenceIdeal.OpsP.ops (F := Ideal)) VR (Proc.devRef .tc Cert.ReferenceIdeal.main_arg8) = VR (Proc.devRef .tc Cert.ReferenceIdeal.main_arg8) := ref_unwritten Cert.ReferenceIdeal.main_arg8
theorem ref_arg9 (VR : Valuation Cert.ReferenceIdeal.τ Cert.ReferenceIdeal.sig (Elt Ideal)) :
    after (Cert.ReferenceIdeal.OpsP.ops (F := Ideal)) VR (Proc.devRef .tc Cert.ReferenceIdeal.main_arg9) = VR (Proc.devRef .tc Cert.ReferenceIdeal.main_arg9) := ref_unwritten Cert.ReferenceIdeal.main_arg9
theorem ref_arg10 (VR : Valuation Cert.ReferenceIdeal.τ Cert.ReferenceIdeal.sig (Elt Ideal)) :
    after (Cert.ReferenceIdeal.OpsP.ops (F := Ideal)) VR (Proc.devRef .tc Cert.ReferenceIdeal.main_arg10) = VR (Proc.devRef .tc Cert.ReferenceIdeal.main_arg10) := ref_unwritten Cert.ReferenceIdeal.main_arg10
theorem ref_arg11 (VR : Valuation Cert.ReferenceIdeal.τ Cert.ReferenceIdeal.sig (Elt Ideal)) :
    after (Cert.ReferenceIdeal.OpsP.ops (F := Ideal)) VR (Proc.devRef .tc Cert.ReferenceIdeal.main_arg11) = VR (Proc.devRef .tc Cert.ReferenceIdeal.main_arg11) := ref_unwritten Cert.ReferenceIdeal.main_arg11

end Cert.Joined

end
-- ==== Proof.lean ====
/-
  The certificate: a graph-memory update — each node's latest message gathered and aggregated, then one gated update of
  every node's memory row — computed by a tiled kernel and by plain array operations, is one function on the extended reals.

  The kernel's program does the gathers, the time encodings and the choice of each node's latest message with host
  operations, then runs one pallas_call over 50 blocks of 4000 nodes: two products into zero accumulators, bias rows, three
  bands, the gates. The reference does everything with host operations over all 200000 nodes.
    * The frames. The kernel program's region is run once for any reading of the floats (Proof/RegionBits.lean at the
      words, Proof/RegionIdeal.lean at the extended reals): its argument arrays end as launched. The reference is a line of
      host operations none of which writes an argument.
    * The values. Block t of the kernel's result is block t of `GruCell.newMemory` of the arrays its region finds
      (Proof/KernelRows.lean, Proof/KernelArray.lean), and the 50 blocks tile the array. The reference's result is the same
      function of its own aggregated messages (Proof/HostTail.lean, Proof/JoinTail.lean). The two aggregated-message arrays
      are one term of the arguments, the kernel program's extra clip of a row number being absorbed by the gather's own clamp
      (Proof/ClipRows.lean, Proof/JoinAggr.lean); so are the two arrays of new update times (Proof/JoinTimes.lean); the
      transposed weights and the bias rows are the arguments' (Proof/JoinSmall.lean).
  No law of arithmetic joins the two sides — the sums are taken in the same order — so the precondition is not used.
-/
import proofs.«154772_j39754217292129_1_alg».proof.Defs
import proofs.«154772_j39754217292129_1_alg».proof.Proof.Gen.Kernel
import proofs.«154772_j39754217292129_1_alg».proof.Proof.Gen.KernelIdeal
import proofs.«154772_j39754217292129_1_alg».proof.Proof.Gen.ReferenceIdeal
import proofs.«154772_j39754217292129_1_alg».proof.Proof.Gen.Pre_finite_inputs
import proofs.«154772_j39754217292129_1_alg».proof.Proof.RegionBits
import proofs.«154772_j39754217292129_1_alg».proof.Proof.RegionIdeal
import proofs.«154772_j39754217292129_1_alg».proof.Proof.KernelArray
import proofs.«154772_j39754217292129_1_alg».proof.Proof.RefOps
import proofs.«154772_j39754217292129_1_alg».proof.Proof.HostTail
import proofs.«154772_j39754217292129_1_alg».proof.Proof.JoinTimes
import proofs.«154772_j39754217292129_1_alg».proof.Proof.JoinTail
import proofs.«154772_j39754217292129_1_alg».proof.Proof.JoinAggr
import proofs.«154772_j39754217292129_1_alg».proof.Proof.JoinSmall
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Idealize.ShloMosaic.StableHlo
open Cert.GruCell

/-- Equal arrays give equal new memories. -/
theorem newMemory_congr {A A' : (⟨2, ![200000, 472]⟩ : Shape).Idx → EReal} {M M' : (⟨2, ![200000, 100]⟩ : Shape).Idx → EReal}
    {wi wi' : (⟨2, ![472, 300]⟩ : Shape).Idx → EReal} {wh wh' : (⟨2, ![100, 300]⟩ : Shape).Idx → EReal} {bi bi' bh bh' : Fin 300 → EReal}
    (hA : A = A') (hM : M = M') (hwi : wi = wi') (hwh : wh = wh') (hbi : bi = bi') (hbh : bh = bh') :
    newMemory A M wi wh bi bh = newMemory A' M' wi' wh' bi' bh' := by subst hA hM hwi hwh hbi hbh; rfl

/-! ## The frames -/

theorem frame_k : Cert.frame_Kernel := fun m ρ _ => Cert.Kernel.Region.frame m ρ

theorem frame_ki : Cert.frame_KernelIdeal := fun m ρ _ => Cert.KernelIdeal.Region.frame m ρ

/-- The reference's buffers end at the fold of its operations, and no operation writes an argument. -/
theorem frame_ri : Cert.frame_ReferenceIdeal := fun m ρ _ =>
  (θ_run Cert.ReferenceIdeal.defs _ _).mono (fun _ h c => ⟨
      (h c Cert.ReferenceIdeal.main_arg0).trans (Cert.Joined.ref_arg0 _),
      (h c Cert.ReferenceIdeal.main_arg1).trans (Cert.Joined.ref_arg1 _),
      (h c Cert.ReferenceIdeal.main_arg2).trans (Cert.Joined.ref_arg2 _),
      (h c Cert.ReferenceIdeal.main_arg3).trans (Cert.Joined.ref_arg3 _),
      (h c Cert.ReferenceIdeal.main_arg4).trans (Cert.Joined.ref_arg4 _),
      (h c Cert.ReferenceIdeal.main_arg5).trans (Cert.Joined.ref_arg5 _),
      (h c Cert.ReferenceIdeal.main_arg6).trans (Cert.Joined.ref_arg6 _),
      (h c Cert.ReferenceIdeal.main_arg7).trans (Cert.Joined.ref_arg7 _),
      (h c Cert.ReferenceIdeal.main_arg8).trans (Cert.Joined.ref_arg8 _),
      (h c Cert.ReferenceIdeal.main_arg9).trans (Cert.Joined.ref_arg9 _),
      (h c Cert.ReferenceIdeal.main_arg10).trans (Cert.Joined.ref_arg10 _),
      (h c Cert.ReferenceIdeal.main_arg11).trans (Cert.Joined.ref_arg11 _)⟩) (Cert.ReferenceIdeal.OpsP.raw (F := Ideal) m ρ)

/-! ## The values -/

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))

include hagree

theorem hR0 (c : Dev Cert.KernelIdeal.nD) : launchContents m' c (Proc.devRef .tc Cert.ReferenceIdeal.main_arg0) = m ((c.tc : Thread Cert.KernelIdeal.nD Cert.KernelIdeal.τ).loc Cert.KernelIdeal.main_arg0) := (hagree c).1
theorem hR1 (c : Dev Cert.KernelIdeal.nD) : launchContents m' c (Proc.devRef .tc Cert.ReferenceIdeal.main_arg1) = m ((c.tc : Thread Cert.KernelIdeal.nD Cert.KernelIdeal.τ).loc Cert.KernelIdeal.main_arg1) := (hagree c).2.1
theorem hR2 (c : Dev Cert.KernelIdeal.nD) : launchContents m' c (Proc.devRef .tc Cert.ReferenceIdeal.main_arg2) = m ((c.tc : Thread Cert.KernelIdeal.nD Cert.KernelIdeal.τ).loc Cert.KernelIdeal.main_arg2) := (hagree c).2.2.1
theorem hR3 (c : Dev Cert.KernelIdeal.nD) : launchContents m' c (Proc.devRef .tc Cert.ReferenceIdeal.main_arg3) = m ((c.tc : Thread Cert.KernelIdeal.nD Cert.KernelIdeal.τ).loc Cert.KernelIdeal.main_arg3) := (hagree c).2.2.2.1
theorem hR4 (c : Dev Cert.KernelIdeal.nD) : launchContents m' c (Proc.devRef .tc Cert.ReferenceIdeal.main_arg4) = m ((c.tc : Thread Cert.KernelIdeal.nD Cert.KernelIdeal.τ).loc Cert.KernelIdeal.main_arg4) := (hagree c).2.2.2.2.1
theorem hR5 (c : Dev Cert.KernelIdeal.nD) : launchContents m' c (Proc.devRef .tc Cert.ReferenceIdeal.main_arg5) = m ((c.tc : Thread Cert.KernelIdeal.nD Cert.KernelIdeal.τ).loc Cert.KernelIdeal.main_arg5) := (hagree c).2.2.2.2.2.1
theorem hR6 (c : Dev Cert.KernelIdeal.nD) : launchContents m' c (Proc.devRef .tc Cert.ReferenceIdeal.main_arg6) = m ((c.tc : Thread Cert.KernelIdeal.nD Cert.KernelIdeal.τ).loc Cert.KernelIdeal.main_arg6) := (hagree c).2.2.2.2.2.2.1
theorem hR7 (c : Dev Cert.KernelIdeal.nD) : launchContents m' c (Proc.devRef .tc Cert.ReferenceIdeal.main_arg7) = m ((c.tc : Thread Cert.KernelIdeal.nD Cert.KernelIdeal.τ).loc Cert.KernelIdeal.main_arg7) := (hagree c).2.2.2.2.2.2.2.1
theorem hR8 (c : Dev Cert.KernelIdeal.nD) : launchContents m' c (Proc.devRef .tc Cert.ReferenceIdeal.main_arg8) = m ((c.tc : Thread Cert.KernelIdeal.nD Cert.KernelIdeal.τ).loc Cert.KernelIdeal.main_arg8) := (hagree c).2.2.2.2.2.2.2.2.1
theorem hR9 (c : Dev Cert.KernelIdeal.nD) : launchContents m' c (Proc.devRef .tc Cert.ReferenceIdeal.main_arg9) = m ((c.tc : Thread Cert.KernelIdeal.nD Cert.KernelIdeal.τ).loc Cert.KernelIdeal.main_arg9) := (hagree c).2.2.2.2.2.2.2.2.2.1
theorem hR10 (c : Dev Cert.KernelIdeal.nD) : launchContents m' c (Proc.devRef .tc Cert.ReferenceIdeal.main_arg10) = m ((c.tc : Thread Cert.KernelIdeal.nD Cert.KernelIdeal.τ).loc Cert.KernelIdeal.main_arg10) := (hagree c).2.2.2.2.2.2.2.2.2.2.1
theorem hR11 (c : Dev Cert.KernelIdeal.nD) : launchContents m' c (Proc.devRef .tc Cert.ReferenceIdeal.main_arg11) = m ((c.tc : Thread Cert.KernelIdeal.nD Cert.KernelIdeal.τ).loc Cert.KernelIdeal.main_arg11) := (hagree c).2.2.2.2.2.2.2.2.2.2.2

/-- The new update times: the kernel program's, left by its host operations, are the reference's. -/
theorem times (c : Dev Cert.KernelIdeal.nD) :
    Cert.KernelIdeal.Region.V m c Cert.KernelIdeal.main_v101
      = after (Cert.ReferenceIdeal.OpsP.ops (F := Ideal)) (launchContents m' c) (Proc.devRef .tc Cert.ReferenceIdeal.main_v153) :=
  Cert.Joined.times_eq (fun b => m (c, b)) (launchContents m' c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5))
    rfl rfl rfl rfl (hR0 m m' hagree c) (hR1 m m' hagree c) (hR2 m m' hagree c) (hR5 m m' hagree c)

/-- The new memory: the kernel's, one function of the arrays its region finds, is the reference's. -/
theorem memory (c : Dev Cert.KernelIdeal.nD) :
    newMemory (Cert.KernelIdeal.Region.V m c Cert.KernelIdeal.main_v94) (Cert.KernelIdeal.Region.V m c Cert.KernelIdeal.main_arg4) (Cert.KernelIdeal.Region.V m c Cert.KernelIdeal.main_v102)
        (Cert.KernelIdeal.Region.V m c Cert.KernelIdeal.main_v103) (fun j => Cert.KernelIdeal.Region.V m c Cert.KernelIdeal.main_v104 (ix2 (0 : Fin 1) j))
        (fun j => Cert.KernelIdeal.Region.V m c Cert.KernelIdeal.main_v105 (ix2 (0 : Fin 1) j))
      = after (Cert.ReferenceIdeal.OpsP.ops (F := Ideal)) (launchContents m' c) (Proc.devRef .tc Cert.ReferenceIdeal.main_v146) := by
  refine Eq.trans ?_ ((Cert.Joined.tail_eq (launchContents m' c)).trans (Cert.ReferenceIdeal.Tail.hostTail_eq _ _ _ _ _ _)).symm
  refine newMemory_congr ?_ ?_ ?_ ?_ ?_ ?_
  · exact Cert.Joined.aggr_eq (fun b => m (c, b)) (launchContents m' c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      rfl rfl rfl rfl rfl rfl rfl rfl (hR0 m m' hagree c) (hR1 m m' hagree c) (hR2 m m' hagree c) (hR3 m m' hagree c)
      (hR4 m m' hagree c) (hR5 m m' hagree c) (hR6 m m' hagree c) (hR7 m m' hagree c)
  · exact (Cert.KernelIdeal.Region.V_arg4 m c).trans (hR4 m m' hagree c).symm
  · exact (Cert.Joined.wi_eq (fun b => m (c, b))).trans
      (congrArg (fun (x : Cert.KernelIdeal.S300x472.Idx → EReal) => transpose Cert.KernelIdeal.S472x300 [1, 0] x Cert.KernelIdeal.Gen.transposes_S300x472_S472x300_1_0) (hR8 m m' hagree c).symm)
  · exact (Cert.Joined.wh_eq (fun b => m (c, b))).trans
      (congrArg (fun (x : Cert.KernelIdeal.S300x100.Idx → EReal) => transpose Cert.KernelIdeal.S100x300 [1, 0] x Cert.KernelIdeal.Gen.transposes_S300x100_S100x300_1_0) (hR9 m m' hagree c).symm)
  · exact funext fun j => (Cert.Joined.bi_eq (fun b => m (c, b)) j).trans (congrFun (hR10 m m' hagree c).symm (ix1 j))
  · exact funext fun j => (Cert.Joined.bh_eq (fun b => m (c, b)) j).trans (congrFun (hR11 m m' hagree c).symm (ix1 j))

end Values

/-- At the extended reals the two programs, from memories that agree on the arguments, end with equal results. -/
theorem algebraic : Cert.algebraic_KernelIdeal_ReferenceIdeal := by
  intro m ρ m' ρ' _ hagree
  refine ⟨fun c => after (Cert.ReferenceIdeal.OpsP.ops (F := Ideal)) (launchContents m' c) (Proc.devRef .tc Cert.ReferenceIdeal.main_v146),
    fun c => after (Cert.ReferenceIdeal.OpsP.ops (F := Ideal)) (launchContents m' c) (Proc.devRef .tc Cert.ReferenceIdeal.main_v153), ?_, ?_⟩
  · exact (θ_run Cert.KernelIdeal.defs _ _).mono (fun r h c => ⟨(h c).1.trans (memory m m' hagree c),
      (h c).2.1.trans (times m m' hagree c), (h c).2.2⟩) (Cert.KernelIdeal.Whole.run_all m ρ)
  · exact (θ_run Cert.ReferenceIdeal.defs _ _).mono (fun _ h c => ⟨h c Cert.ReferenceIdeal.main_v146, h c Cert.ReferenceIdeal.main_v153,
      (h c Cert.ReferenceIdeal.main_arg0).trans (Cert.Joined.ref_arg0 _),
      (h c Cert.ReferenceIdeal.main_arg1).trans (Cert.Joined.ref_arg1 _),
      (h c Cert.ReferenceIdeal.main_arg2).trans (Cert.Joined.ref_arg2 _),
      (h c Cert.ReferenceIdeal.main_arg3).trans (Cert.Joined.ref_arg3 _),
      (h c Cert.ReferenceIdeal.main_arg4).trans (Cert.Joined.ref_arg4 _),
      (h c Cert.ReferenceIdeal.main_arg5).trans (Cert.Joined.ref_arg5 _),
      (h c Cert.ReferenceIdeal.main_arg6).trans (Cert.Joined.ref_arg6 _),
      (h c Cert.ReferenceIdeal.main_arg7).trans (Cert.Joined.ref_arg7 _),
      (h c Cert.ReferenceIdeal.main_arg8).trans (Cert.Joined.ref_arg8 _),
      (h c Cert.ReferenceIdeal.main_arg9).trans (Cert.Joined.ref_arg9 _),
      (h c Cert.ReferenceIdeal.main_arg10).trans (Cert.Joined.ref_arg10 _),
      (h c Cert.ReferenceIdeal.main_arg11).trans (Cert.Joined.ref_arg11 _)⟩) (Cert.ReferenceIdeal.OpsP.raw (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
